-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x300000 : Shape := ⟨2, ![2, 300000]⟩
abbrev S100000 : Shape := ⟨1, ![100000]⟩
abbrev S3x256 : Shape := ⟨2, ![3, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S256x2 .f32) (main_arg14 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg13
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S256x256 .f32) (main_arg10 : FVec F S256 .f32) (main_arg11 : FVec F S256x256 .f32) (main_arg12 : FVec F S256 .f32) (main_arg13 : FVec F S256x2 .f32) (main_arg14 : FVec F S2 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x2 .f32) (main_arg14 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x3 .f32) (main_arg1 : IVec S2x300000 32) (main_arg2 : IVec S100000 32) (main_arg3 : FVec F S3x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x2 .f32) (main_arg14 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x256 .f32 := Host.absf main_arg3
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S100000x3 : Shape := ⟨2, ![100000, 3]⟩
abbrev S2x300000 : Shape := ⟨2, ![2, 300000]⟩
abbrev S100000 : Shape := ⟨1, ![100000]⟩
abbrev S3x256 : Shape := ⟨2, ![3, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x300000 : Shape := ⟨2, ![1, 300000]⟩
abbrev S300000 : Shape := ⟨1, ![300000]⟩
abbrev S400000 : Shape := ⟨1, ![400000]⟩
abbrev S_ : Shape := ⟨0, ![]⟩
abbrev S400000x1 : Shape := ⟨2, ![400000, 1]⟩
abbrev S100000x256 : Shape := ⟨2, ![100000, 256]⟩
abbrev S5000x3 : Shape := ⟨2, ![5000, 3]⟩
abbrev S5000x256 : Shape := ⟨2, ![5000, 256]⟩
abbrev S400000x256 : Shape := ⟨2, ![400000, 256]⟩
abbrev S1x256 : Shape := ⟨2, ![1, 256]⟩
abbrev S64 : Shape := ⟨1, ![64]⟩
abbrev S100000x1 : Shape := ⟨2, ![100000, 1]⟩
abbrev S64x256 : Shape := ⟨2, ![64, 256]⟩
abbrev S64x1 : Shape := ⟨2, ![64, 1]⟩
abbrev S64x2 : Shape := ⟨2, ![64, 2]⟩
abbrev S1x2 : Shape := ⟨2, ![1, 2]⟩

abbrev nBuf : Space → Nat
  | .hbm => 174
  | .vmem => 50
  | .smem => 0
  | _ => 0

abbrev hbmTy0_0 (i : Nat) : BufTy := match i % 128 with
  | 0 => ⟨S100000x3, .f32⟩
  | 1 => ⟨S2x300000, .i32⟩
  | 2 => ⟨S100000, .i32⟩
  | 3 => ⟨S3x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x2, .f32⟩
  | 14 => ⟨S2, .f32⟩
  | 15 => ⟨S100000, .i32⟩
  | 16 => ⟨S1x300000, .i32⟩
  | 17 => ⟨S300000, .i32⟩
  | 18 => ⟨S400000, .i32⟩
  | 19 => ⟨S1x300000, .i32⟩
  | 20 => ⟨S300000, .i32⟩
  | 21 => ⟨S400000, .i32⟩
  | 22 => ⟨S_, .f32⟩
  | 23 => ⟨S400000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000, .f32⟩
  | 54 => ⟨S400000, .f32⟩
  | 55 => ⟨S400000x1, .f32⟩
  | 56 => ⟨S100000x256, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x256, .f32⟩
  | 66 => ⟨S400000x256, .f32⟩
  | 67 => ⟨S400000x256, .f32⟩
  | 68 => ⟨S_, .f32⟩
  | 69 => ⟨S100000x256, .f32⟩
  | 70 => ⟨S400000x1, .i32⟩
  | 71 => ⟨S100000x256, .f32⟩
  | 72 => ⟨S1x256, .f32⟩
  | 73 => ⟨S100000x256, .f32⟩
  | 74 => ⟨S100000x256, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x256, .f32⟩
  | 84 => ⟨S400000x256, .f32⟩
  | 85 => ⟨S400000x256, .f32⟩
  | 86 => ⟨S_, .f32⟩
  | 87 => ⟨S100000x256, .f32⟩
  | 88 => ⟨S400000x1, .i32⟩
  | 89 => ⟨S100000x256, .f32⟩
  | 90 => ⟨S1x256, .f32⟩
  | 91 => ⟨S100000x256, .f32⟩
  | 92 => ⟨S100000x256, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x256, .f32⟩
  | 102 => ⟨S400000x256, .f32⟩
  | 103 => ⟨S400000x256, .f32⟩
  | 104 => ⟨S_, .f32⟩
  | 105 => ⟨S100000x256, .f32⟩
  | 106 => ⟨S400000x1, .i32⟩
  | 107 => ⟨S100000x256, .f32⟩
  | 108 => ⟨S1x256, .f32⟩
  | 109 => ⟨S100000x256, .f32⟩
  | 110 => ⟨S100000x256, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S400000x256, .f32⟩
  | 120 => ⟨S400000x256, .f32⟩
  | 121 => ⟨S400000x256, .f32⟩
  | 122 => ⟨S_, .f32⟩
  | 123 => ⟨S100000x256, .f32⟩
  | 124 => ⟨S400000x1, .i32⟩
  | 125 => ⟨S100000x256, .f32⟩
  | 126 => ⟨S1x256, .f32⟩
  | 127 => ⟨S100000x256, .f32⟩
  | _ => ⟨S100000x3, .f32⟩

abbrev hbmTy0_1 (i : Nat) : BufTy := match i % 128 with
  | 0 => ⟨S100000x256, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x256, .f32⟩
  | 10 => ⟨S400000x256, .f32⟩
  | 11 => ⟨S400000x256, .f32⟩
  | 12 => ⟨S_, .f32⟩
  | 13 => ⟨S100000x256, .f32⟩
  | 14 => ⟨S400000x1, .i32⟩
  | 15 => ⟨S100000x256, .f32⟩
  | 16 => ⟨S1x256, .f32⟩
  | 17 => ⟨S100000x256, .f32⟩
  | 18 => ⟨S_, .f32⟩
  | 19 => ⟨S100000, .f32⟩
  | 20 => ⟨S_, .f32⟩
  | 21 => ⟨S64, .f32⟩
  | 22 => ⟨S100000x1, .i32⟩
  | 23 => ⟨S64, .f32⟩
  | 24 => ⟨S_, .f32⟩
  | 25 => ⟨S64x256, .f32⟩
  | 26 => ⟨S100000x1, .i32⟩
  | 27 => ⟨S64x256, .f32⟩
  | 28 => ⟨S_, .f32⟩
  | 29 => ⟨S64, .f32⟩
  | 30 => ⟨S64, .f32⟩
  | 31 => ⟨S64x1, .f32⟩
  | 32 => ⟨S64x256, .f32⟩
  | 33 => ⟨S64x256, .f32⟩
  | 34 => ⟨S64x2, .f32⟩
  | 35 => ⟨S1x2, .f32⟩
  | 36 => ⟨S64x2, .f32⟩
  | 37 => ⟨S64x2, .f32⟩
  | 38 => ⟨S64x2, .f32⟩
  | 39 => ⟨S64x2, .f32⟩
  | 40 => ⟨S_, .f32⟩
  | 41 => ⟨S64x2, .f32⟩
  | 42 => ⟨S64x2, .f32⟩
  | 43 => ⟨S_, .f32⟩
  | 44 => ⟨S64x2, .f32⟩
  | 45 => ⟨S64x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S5000x256, .f32⟩
  | .local _ .vmem, ⟨32, _⟩ => ⟨S256x256, .f32⟩
  | .local _ .vmem, ⟨33, _⟩ => ⟨S5000x256, .f32⟩
  | .local _ .vmem, ⟨34, _⟩ => ⟨S5000x256, .f32⟩
  | .local _ .vmem, ⟨35, _⟩ => ⟨S5000x256, .f32⟩
  | .local _ .vmem, ⟨36, _⟩ => ⟨S5000x256, .f32⟩
  | .local _ .vmem, ⟨37, _⟩ => ⟨S1x256, .f32⟩
  | .local _ .vmem, ⟨38, _⟩ => ⟨S5000x256, .f32⟩
  | .local _ .vmem, ⟨39, _⟩ => ⟨S5000x256, .f32⟩
  | .local _ .vmem, ⟨40, _⟩ => ⟨S5000x256, .f32⟩
  | .local _ .vmem, ⟨41, _⟩ => ⟨S5000x256, .f32⟩
  | .local _ .vmem, ⟨42, _⟩ => ⟨S256x256, .f32⟩
  | .local _ .vmem, ⟨43, _⟩ => ⟨S5000x256, .f32⟩
  | .local _ .vmem, ⟨44, _⟩ => ⟨S5000x256, .f32⟩
  | .local _ .vmem, ⟨45, _⟩ => ⟨S5000x256, .f32⟩
  | .local _ .vmem, ⟨46, _⟩ => ⟨S5000x256, .f32⟩
  | .local _ .vmem, ⟨47, _⟩ => ⟨S1x256, .f32⟩
  | .local _ .vmem, ⟨48, _⟩ => ⟨S5000x256, .f32⟩
  | .local _ .vmem, ⟨49, _⟩ => ⟨S5000x256, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_15 : Ref sig .tc := ⟨.hbm, 111, rfl⟩
abbrev main_v77 : Ref sig .tc := ⟨.hbm, 112, rfl⟩
abbrev main_v78 : Ref sig .tc := ⟨.hbm, 113, rfl⟩
abbrev main_c_16 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_18 : Ref sig .tc := ⟨.hbm, 129, rfl⟩
abbrev main_v92 : Ref sig .tc := ⟨.hbm, 130, rfl⟩
abbrev main_v93 : Ref sig .tc := ⟨.hbm, 131, rfl⟩
abbrev main_c_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_21 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_23 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_24 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_25 : Ref sig .tc := ⟨.hbm, 168, rfl⟩
abbrev main_v124 : Ref sig .tc := ⟨.hbm, 169, rfl⟩
abbrev main_v125 : Ref sig .tc := ⟨.hbm, 170, rfl⟩
abbrev main_cst_26 : Ref sig .tc := ⟨.hbm, 171, rfl⟩
abbrev main_v126 : Ref sig .tc := ⟨.hbm, 172, rfl⟩
abbrev main_v127 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x300000_S1x300000_0_0 : S2x300000.Slices ![0, 0] S1x300000
  shapeCasts_S1x300000_S300000 : S1x300000.ShapeCasts S300000
  concatenates_S300000_S100000_S400000_d0 : Shape.Concatenates [S300000, S100000] S400000 0
  slices_S2x300000_S1x300000_1_0 : S2x300000.Slices ![1, 0] S1x300000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x256_S3x256_0_0 : ∀ a, (![0, 0] : Fin 2 → Nat) a + S3x256.size a ≤ S3x256.size a
  h_S3x256 : 0 < S3x256.numel
  inb_S5000x256_S5000x256_0_0 : ∀ a, (![0, 0] : Fin 2 → Nat) a + S5000x256.size a ≤ S5000x256.size a
  h_S5000x256 : 0 < S5000x256.numel
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  bcast_S_S64 : S_.BroadcastsInDim S64 (![] : Fin 0 → Fin S64.rank)
  bcast_S100000_S100000x1_0 : S100000.BroadcastsInDim S100000x1 (![0] : Fin 1 → Fin S100000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  bcast_S_S64x2 : S_.BroadcastsInDim S64x2 (![] : Fin 0 → Fin S64x2.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S5000x3_S3x256_S5000x256_1_0_0_1_n_n_wf : DotDims.WF S5000x3 S3x256 S5000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S5000x256_S256x256_S5000x256_1_0_0_1_n_n_wf : DotDims.WF S5000x256 S256x256 S5000x256 [1] [0] [0] [1] [] []
  scatter_S64_S100000x1_S100000_n_0_0_1_wf : ScatterDims.WF S64 S100000x1 S100000 [] [0] [0] 1
  scatter_S64x256_S100000x1_S100000x256_1_0_0_1_wf : ScatterDims.WF S64x256 S100000x1 S100000x256 [1] [0] [0] 1
  dot_S64x256_S256x2_S64x2_1_0_0_1_n_n_wf : DotDims.WF S64x256 S256x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .f32 = 32 ∨ (Rect.block (s := S100000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S100000x256.size a
  hwx3_2 : ∀ i : grid3.Coords, EltTy.bits .f32 = 32 ∨ (Rect.block (s := S100000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S100000x256.size a
  hwx4_2 : ∀ i : grid4.Coords, EltTy.bits .f32 = 32 ∨ (Rect.block (s := S100000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S100000x256.size a
  hwx5_0 : ∀ i : grid5.Coords, EltTy.bits .f32 = 32 ∨ (Rect.block (s := S100000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S100000x256.size a
  hwx5_2 : ∀ i : grid5.Coords, EltTy.bits .f32 = 32 ∨ (Rect.block (s := S100000x256) S5000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S100000x256.size a
  hwx6_0 : ∀ i : grid6.Coords, EltTy.bits .f32 = 32 ∨ (Rect.block (s := S100000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x256.size a ≤ S100000x256.size a
  hwx6_2 : ∀ i : grid6.Coords, EltTy.bits .f32 = 32 ∨ (Rect.block (s := S100000x256) S5000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S100000x256.size a
  hwx7_0 : ∀ i : grid7.Coords, EltTy.bits .f32 = 32 ∨ (Rect.block (s := S100000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x256.size a ≤ S100000x256.size a
  hwx7_2 : ∀ i : grid7.Coords, EltTy.bits .f32 = 32 ∨ (Rect.block (s := S100000x256) S5000x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S100000x256.size a
  hwx8_0 : ∀ i : grid8.Coords, EltTy.bits .f32 = 32 ∨ (Rect.block (s := S100000x256) S5000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x256.size a ≤ S100000x256.size a
  hwx8_2 : ∀ i : grid8.Coords, EltTy.bits .f32 = 32 ∨ (Rect.block (s := S100000x256) S5000x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x256.size a ≤ S100000x256.size a
  hwx9_0 : ∀ i : grid9.Coords, EltTy.bits .f32 = 32 ∨ (Rect.block (s := S100000x256) S5000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x256.size a ≤ S1x256.size a
  hwx9_1 : ∀ i : grid9.Coords, EltTy.bits .f32 = 32 ∨ (Rect.block (s := S1x256) S1x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x256.size a ≤ S100000x256.size a
  hwx9_2 : ∀ i : grid9.Coords, EltTy.bits .f32 = 32 ∨ (Rect.block (s := S100000x256) S5000x256.size (cc9_transform_2 i) (hinb9_2 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S5000x3_S3x256_S5000x256_1_0_0_1_n_n : DotDims S5000x3 S3x256 S5000x256 where
  lhsContracting := [1]
  rhsContracting := [0]
  lhsNonContracting := [0]
  rhsNonContracting := [1]
  lhsBatch := []
  rhsBatch := []
  wf := dot_S5000x3_S3x256_S5000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S5000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v89) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S5000x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v90) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v91) S5000x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v103) S5000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S1x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S5000x256.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x3 : Shape := ⟨2, ![100000, 3]⟩
abbrev S2x300000 : Shape := ⟨2, ![2, 300000]⟩
abbrev S100000 : Shape := ⟨1, ![100000]⟩
abbrev S3x256 : Shape := ⟨2, ![3, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x300000 : Shape := ⟨2, ![1, 300000]⟩
abbrev S300000 : Shape := ⟨1, ![300000]⟩
abbrev S400000 : Shape := ⟨1, ![400000]⟩
abbrev S_ : Shape := ⟨0, ![]⟩
abbrev S400000x1 : Shape := ⟨2, ![400000, 1]⟩
abbrev S100000x256 : Shape := ⟨2, ![100000, 256]⟩
abbrev S400000x256 : Shape := ⟨2, ![400000, 256]⟩
abbrev S1x256 : Shape := ⟨2, ![1, 256]⟩
abbrev S64 : Shape := ⟨1, ![64]⟩
abbrev S100000x1 : Shape := ⟨2, ![100000, 1]⟩
abbrev S64x256 : Shape := ⟨2, ![64, 256]⟩
abbrev S64x1 : Shape := ⟨2, ![64, 1]⟩
abbrev S64x2 : Shape := ⟨2, ![64, 2]⟩
abbrev S1x2 : Shape := ⟨2, ![1, 2]⟩

abbrev nBuf : Space → Nat
  | .hbm => 194
  | .vmem => 0
  | .smem => 0
  | _ => 0

abbrev hbmTy0_0 (i : Nat) : BufTy := match i % 128 with
  | 0 => ⟨S100000x3, .f32⟩
  | 1 => ⟨S2x300000, .i32⟩
  | 2 => ⟨S100000, .i32⟩
  | 3 => ⟨S3x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x2, .f32⟩
  | 14 => ⟨S2, .f32⟩
  | 15 => ⟨S100000, .i32⟩
  | 16 => ⟨S1x300000, .i32⟩
  | 17 => ⟨S300000, .i32⟩
  | 18 => ⟨S400000, .i32⟩
  | 19 => ⟨S1x300000, .i32⟩
  | 20 => ⟨S300000, .i32⟩
  | 21 => ⟨S400000, .i32⟩
  | 22 => ⟨S_, .f32⟩
  | 23 => ⟨S400000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000, .f32⟩
  | 54 => ⟨S400000, .f32⟩
  | 55 => ⟨S400000x1, .f32⟩
  | 56 => ⟨S100000x256, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x256, .f32⟩
  | 66 => ⟨S400000x256, .f32⟩
  | 67 => ⟨S400000x256, .f32⟩
  | 68 => ⟨S_, .f32⟩
  | 69 => ⟨S100000x256, .f32⟩
  | 70 => ⟨S400000x1, .i32⟩
  | 71 => ⟨S100000x256, .f32⟩
  | 72 => ⟨S1x256, .f32⟩
  | 73 => ⟨S100000x256, .f32⟩
  | 74 => ⟨S100000x256, .f32⟩
  | 75 => ⟨S_, .f32⟩
  | 76 => ⟨S100000x256, .f32⟩
  | 77 => ⟨S100000x256, .f32⟩
  | 78 => ⟨S100000x256, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x256, .f32⟩
  | 88 => ⟨S400000x256, .f32⟩
  | 89 => ⟨S400000x256, .f32⟩
  | 90 => ⟨S_, .f32⟩
  | 91 => ⟨S100000x256, .f32⟩
  | 92 => ⟨S400000x1, .i32⟩
  | 93 => ⟨S100000x256, .f32⟩
  | 94 => ⟨S1x256, .f32⟩
  | 95 => ⟨S100000x256, .f32⟩
  | 96 => ⟨S100000x256, .f32⟩
  | 97 => ⟨S_, .f32⟩
  | 98 => ⟨S100000x256, .f32⟩
  | 99 => ⟨S100000x256, .f32⟩
  | 100 => ⟨S100000x256, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x256, .f32⟩
  | 110 => ⟨S400000x256, .f32⟩
  | 111 => ⟨S400000x256, .f32⟩
  | 112 => ⟨S_, .f32⟩
  | 113 => ⟨S100000x256, .f32⟩
  | 114 => ⟨S400000x1, .i32⟩
  | 115 => ⟨S100000x256, .f32⟩
  | 116 => ⟨S1x256, .f32⟩
  | 117 => ⟨S100000x256, .f32⟩
  | 118 => ⟨S100000x256, .f32⟩
  | 119 => ⟨S_, .f32⟩
  | 120 => ⟨S100000x256, .f32⟩
  | 121 => ⟨S100000x256, .f32⟩
  | 122 => ⟨S100000x256, .f32⟩
  | 123 => ⟨S_, .i32⟩
  | 124 => ⟨S400000, .i32⟩
  | 125 => ⟨S400000, .i1⟩
  | 126 => ⟨S_, .i32⟩
  | 127 => ⟨S400000, .i32⟩
  | _ => ⟨S100000x3, .f32⟩

abbrev hbmTy0_1 (i : Nat) : BufTy := match i % 128 with
  | 0 => ⟨S400000, .i32⟩
  | 1 => ⟨S400000, .i32⟩
  | 2 => ⟨S400000x1, .i32⟩
  | 3 => ⟨S400000x256, .f32⟩
  | 4 => ⟨S400000x256, .f32⟩
  | 5 => ⟨S400000x256, .f32⟩
  | 6 => ⟨S_, .f32⟩
  | 7 => ⟨S100000x256, .f32⟩
  | 8 => ⟨S400000x1, .i32⟩
  | 9 => ⟨S100000x256, .f32⟩
  | 10 => ⟨S1x256, .f32⟩
  | 11 => ⟨S100000x256, .f32⟩
  | 12 => ⟨S100000x256, .f32⟩
  | 13 => ⟨S_, .f32⟩
  | 14 => ⟨S100000x256, .f32⟩
  | 15 => ⟨S100000x256, .f32⟩
  | 16 => ⟨S100000x256, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x256, .f32⟩
  | 26 => ⟨S400000x256, .f32⟩
  | 27 => ⟨S400000x256, .f32⟩
  | 28 => ⟨S_, .f32⟩
  | 29 => ⟨S100000x256, .f32⟩
  | 30 => ⟨S400000x1, .i32⟩
  | 31 => ⟨S100000x256, .f32⟩
  | 32 => ⟨S1x256, .f32⟩
  | 33 => ⟨S100000x256, .f32⟩
  | 34 => ⟨S100000x256, .f32⟩
  | 35 => ⟨S_, .f32⟩
  | 36 => ⟨S100000x256, .f32⟩
  | 37 => ⟨S100000x256, .f32⟩
  | 38 => ⟨S_, .f32⟩
  | 39 => ⟨S100000, .f32⟩
  | 40 => ⟨S_, .f32⟩
  | 41 => ⟨S64, .f32⟩
  | 42 => ⟨S100000x1, .i32⟩
  | 43 => ⟨S64, .f32⟩
  | 44 => ⟨S_, .f32⟩
  | 45 => ⟨S64x256, .f32⟩
  | 46 => ⟨S100000x1, .i32⟩
  | 47 => ⟨S64x256, .f32⟩
  | 48 => ⟨S_, .f32⟩
  | 49 => ⟨S64, .f32⟩
  | 50 => ⟨S64, .f32⟩
  | 51 => ⟨S64x1, .f32⟩
  | 52 => ⟨S64x256, .f32⟩
  | 53 => ⟨S64x256, .f32⟩
  | 54 => ⟨S64x2, .f32⟩
  | 55 => ⟨S1x2, .f32⟩
  | 56 => ⟨S64x2, .f32⟩
  | 57 => ⟨S64x2, .f32⟩
  | 58 => ⟨S64x2, .f32⟩
  | 59 => ⟨S64x2, .f32⟩
  | 60 => ⟨S_, .f32⟩
  | 61 => ⟨S64x2, .f32⟩
  | 62 => ⟨S64x2, .f32⟩
  | 63 => ⟨S_, .f32⟩
  | 64 => ⟨S64x2, .f32⟩
  | 65 => ⟨S64x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call2_cst : Ref sig .tc := ⟨.hbm, 97, rfl⟩
abbrev main_call2_v0 : Ref sig .tc := ⟨.hbm, 98, rfl⟩
abbrev main_v64 : Ref sig .tc := ⟨.hbm, 99, rfl⟩
abbrev main_v65 : Ref sig .tc := ⟨.hbm, 100, rfl⟩
abbrev main_c_12 : Ref sig .tc := ⟨.hbm, 101, rfl⟩
abbrev main_v66 : Ref sig .tc := ⟨.hbm, 102, rfl⟩
abbrev main_v67 : Ref sig .tc := ⟨.hbm, 103, rfl⟩
abbrev main_c_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call3_cst : Ref sig .tc := ⟨.hbm, 119, rfl⟩
abbrev main_call3_v0 : Ref sig .tc := ⟨.hbm, 120, rfl⟩
abbrev main_v81 : Ref sig .tc := ⟨.hbm, 121, rfl⟩
abbrev main_v82 : Ref sig .tc := ⟨.hbm, 122, rfl⟩
abbrev main_c_15 : Ref sig .tc := ⟨.hbm, 123, rfl⟩
abbrev main_v83 : Ref sig .tc := ⟨.hbm, 124, rfl⟩
abbrev main_v84 : Ref sig .tc := ⟨.hbm, 125, rfl⟩
abbrev main_c_16 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call4_cst : Ref sig .tc := ⟨.hbm, 141, rfl⟩
abbrev main_call4_v0 : Ref sig .tc := ⟨.hbm, 142, rfl⟩
abbrev main_v98 : Ref sig .tc := ⟨.hbm, 143, rfl⟩
abbrev main_v99 : Ref sig .tc := ⟨.hbm, 144, rfl⟩
abbrev main_c_18 : Ref sig .tc := ⟨.hbm, 145, rfl⟩
abbrev main_v100 : Ref sig .tc := ⟨.hbm, 146, rfl⟩
abbrev main_v101 : Ref sig .tc := ⟨.hbm, 147, rfl⟩
abbrev main_c_19 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_20 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_call5_cst : Ref sig .tc := ⟨.hbm, 163, rfl⟩
abbrev main_call5_v0 : Ref sig .tc := ⟨.hbm, 164, rfl⟩
abbrev main_v115 : Ref sig .tc := ⟨.hbm, 165, rfl⟩
abbrev main_cst_21 : Ref sig .tc := ⟨.hbm, 166, rfl⟩
abbrev main_v116 : Ref sig .tc := ⟨.hbm, 167, rfl⟩
abbrev main_cst_22 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_23 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_24 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_25 : Ref sig .tc := ⟨.hbm, 188, rfl⟩
abbrev main_v134 : Ref sig .tc := ⟨.hbm, 189, rfl⟩
abbrev main_v135 : Ref sig .tc := ⟨.hbm, 190, rfl⟩
abbrev main_cst_26 : Ref sig .tc := ⟨.hbm, 191, rfl⟩
abbrev main_v136 : Ref sig .tc := ⟨.hbm, 192, rfl⟩
abbrev main_v137 : Ref sig .tc := ⟨.hbm, 193, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S100000_S400000_d0 : Shape.Concatenates [S300000, S100000] S400000 0
  slices_S2x300000_S1x300000_1_0 : S2x300000.Slices ![1, 0] S1x300000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S64 : S_.BroadcastsInDim S64 (![] : Fin 0 → Fin S64.rank)
  bcast_S100000_S100000x1_0 : S100000.BroadcastsInDim S100000x1 (![0] : Fin 1 → Fin S100000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  bcast_S_S64x2 : S_.BroadcastsInDim S64x2 (![] : Fin 0 → Fin S64x2.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S100000x3_S3x256_S100000x256_1_0_0_1_n_n_wf : DotDims.WF S100000x3 S3x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x256_S100000x256_1_0_0_1_n_n_wf : DotDims.WF S100000x256 S256x256 S100000x256 [1] [0] [0] [1] [] []
  scatter_S64_S100000x1_S100000_n_0_0_1_wf : ScatterDims.WF S64 S100000x1 S100000 [] [0] [0] 1
  scatter_S64x256_S100000x1_S100000x256_1_0_0_1_wf : ScatterDims.WF S64x256 S100000x1 S100000x256 [1] [0] [0] 1
  dot_S64x256_S256x2_S64x2_1_0_0_1_n_n_wf : DotDims.WF S64x256 S256x2 S64x2 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S100000x3_S3x256_S100000x256_1_0_0_1_n_n : DotDims S100000x3 S3x256 S100000x256 where
  lhsContracting := [1]
  rhsContracting := [0]
  lhsNonContracting := [0]
  rhsNonContracting := [1]
  lhsBatch := []
  rhsBatch := []
  wf := dot_S100000x3_S3x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

class Facts : Prop extends Facts₀ where

variable [Facts]
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.RunMain.lean ====
/-
  The idealized kernel program's run with its result named.

  Every weakly fair execution of the program's nineteen segments — host stretches and the ten launches — terminates
  without a fault; the final state holds every unscoped buffer at the contents the last segment leaves. Read at the
  result buffer this names the result; read at the arguments, which no segment writes, it gives them back unchanged.
-/
import proofs.«109091_j76974403879378_1_alg».proof.Proof.Gen.KernelIdeal.Frame

set_option maxRecDepth 16384

noncomputable section

namespace Cert.Gcn.RunMain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v127) = W19 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v127 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c)⟩)

end Cert.Gcn.RunMain

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«109091_j76974403879378_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.Spec.lean ====
/-
  The graph network both programs compute, written once, in the reference program's own spelling.

  From the edge list e (two rows of 300000 node numbers) and the 100000 self loops: the source numbers `srcV e`, the
  destination numbers `dstV e`, and the edge weights `normV` (the product of the guarded inverse square roots of the two
  end points' degrees, as a column). One layer takes node features h, multiplies them by a weight matrix (`dot`),
  gathers the rows at the edges' sources, scales each by its edge weight and adds it into its destination's row
  (`agg`), then adds the bias row and takes the maximum with zero (`biasRelu`). Five layers are followed by a mean
  over each graph of the batch, a two-column linear map and the logistic function (`tail`).

  The reference's result term is literally `tail` of the five layers (`ref_eq`, by unfolding). The two operations the kernel
  program computes on the TensorCore — the product and the bias-maximum — are read here at a coordinate.
-/
import proofs.«109091_j76974403879378_1_alg».proof.Proof.RefRun
import proofs.«109091_j76974403879378_1_alg».proof.Proof.LibHostDense

noncomputable section

namespace Cert.Gcn.Spec

open Cert.ReferenceIdeal Cert.ReferenceIdeal.Gen Idealize.ShloMosaic Idealize.ShloMosaic.TcCoe Idealize.SL.Sem Idealize.ShloMosaic.StableHlo
open Idealize.ShloMosaic.ValueIdx
open scoped BigOperators

section Generic
variable {F : FTy → Type} [FloatOps F]

/-- The edges' source numbers followed by the self loops' (0, 1, …, 99999). -/
def srcV (e : (⟨S2x300000, .i32⟩ : BufTy).Contents (Elt F)) : (⟨S400000, .i32⟩ : BufTy).Contents (Elt F) :=
  concatenate S400000 0 [⟨S300000, (shapeCast _ (extractStridedSlice S1x300000 ![0, 0] e slices_S2x300000_S1x300000_0_0) shapeCasts_S1x300000_S300000)⟩, ⟨S100000, (iotaInDim S100000 32 0)⟩] concatenates_S300000_S100000_S400000_d0

/-- The edges' destination numbers followed by the self loops'. -/
def dstV (e : (⟨S2x300000, .i32⟩ : BufTy).Contents (Elt F)) : (⟨S400000, .i32⟩ : BufTy).Contents (Elt F) :=
  concatenate S400000 0 [⟨S300000, (shapeCast _ (extractStridedSlice S1x300000 ![1, 0] e slices_S2x300000_S1x300000_1_0) shapeCasts_S1x300000_S300000)⟩, ⟨S100000, (iotaInDim S100000 32 0)⟩] concatenates_S300000_S100000_S400000_d0

/-- The edge weights as a column: with deg the number of edges into a node and dinv = rsqrt deg where deg > 0, else 0,
    edge j weighs dinv (source j) · dinv (destination j). -/
def normV (s d : (⟨S400000, .i32⟩ : BufTy).Contents (Elt F)) : (⟨S400000x1, .f32⟩ : BufTy).Contents (Elt F) :=
  broadcastInDim S400000x1 ![0] bcast_S400000_S400000x1_0 (mulf (Host.gather gather_S100000_S400000x1_S400000_n_0_n_n_0_1_1 (select (cmpf (F := F) .ogt (Host.scatterAdd scatter_S100000_S400000x1_S400000_n_0_0_1 (broadcastInDim S100000 ![] bcast_S_S100000 (constant S_ .f32 0x00000000#32)) (broadcastInDim S400000x1 ![0] bcast_S400000_S400000x1_0 d) (broadcastInDim S400000 ![] bcast_S_S400000 (constant S_ .f32 0x3F800000#32))) (broadcastInDim S100000 ![] bcast_S_S100000 (constant S_ .f32 0x00000000#32))) (Host.rsqrt (Host.scatterAdd scatter_S100000_S400000x1_S400000_n_0_0_1 (broadcastInDim S100000 ![] bcast_S_S100000 (constant S_ .f32 0x00000000#32)) (broadcastInDim S400000x1 ![0] bcast_S400000_S400000x1_0 d) (broadcastInDim S400000 ![] bcast_S_S400000 (constant S_ .f32 0x3F800000#32)))) (broadcastInDim S100000 ![] bcast_S_S100000 (id (constant S_ .f32 0x00000000#32)))) (broadcastInDim S400000x1 ![0] bcast_S400000_S400000x1_0 (select (cmpi .slt s (broadcastInDim S400000 ![] bcast_S_S400000 (constantI S_ 32 0#32))) (addi s (broadcastInDim S400000 ![] bcast_S_S400000 (constantI S_ 32 100000#32))) s))) (Host.gather gather_S100000_S400000x1_S400000_n_0_n_n_0_1_1 (select (cmpf (F := F) .ogt (Host.scatterAdd scatter_S100000_S400000x1_S400000_n_0_0_1 (broadcastInDim S100000 ![] bcast_S_S100000 (constant S_ .f32 0x00000000#32)) (broadcastInDim S400000x1 ![0] bcast_S400000_S400000x1_0 d) (broadcastInDim S400000 ![] bcast_S_S400000 (constant S_ .f32 0x3F800000#32))) (broadcastInDim S100000 ![] bcast_S_S100000 (constant S_ .f32 0x00000000#32))) (Host.rsqrt (Host.scatterAdd scatter_S100000_S400000x1_S400000_n_0_0_1 (broadcastInDim S100000 ![] bcast_S_S100000 (constant S_ .f32 0x00000000#32)) (broadcastInDim S400000x1 ![0] bcast_S400000_S400000x1_0 d) (broadcastInDim S400000 ![] bcast_S_S400000 (constant S_ .f32 0x3F800000#32)))) (broadcastInDim S100000 ![] bcast_S_S100000 (id (constant S_ .f32 0x00000000#32)))) (broadcastInDim S400000x1 ![0] bcast_S400000_S400000x1_0 (select (cmpi .slt d (broadcastInDim S400000 ![] bcast_S_S400000 (constantI S_ 32 0#32))) (addi d (broadcastInDim S400000 ![] bcast_S_S400000 (constantI S_ 32 100000#32))) d))))

/-- A weight matrix applied to every node's 256 features. -/
def dot (h : (⟨S100000x256, .f32⟩ : BufTy).Contents (Elt F)) (w : (⟨S256x256, .f32⟩ : BufTy).Contents (Elt F)) : (⟨S100000x256, .f32⟩ : BufTy).Contents (Elt F) :=
  Host.dotGeneral dot_S100000x256_S256x256_S100000x256_1_0_0_1_n_n none h w

/-- The first layer's weight matrix applied to every node's 3 features. -/
def dot1 (x : (⟨S100000x3, .f32⟩ : BufTy).Contents (Elt F)) (w : (⟨S3x256, .f32⟩ : BufTy).Contents (Elt F)) : (⟨S100000x256, .f32⟩ : BufTy).Contents (Elt F) :=
  Host.dotGeneral dot_S100000x3_S3x256_S100000x256_1_0_0_1_n_n none x w

/-- Message passing: each edge carries its source's row, scaled by the edge weight, into its destination's row. -/
def agg (s d : (⟨S400000, .i32⟩ : BufTy).Contents (Elt F)) (n : (⟨S400000x1, .f32⟩ : BufTy).Contents (Elt F)) (h : (⟨S100000x256, .f32⟩ : BufTy).Contents (Elt F)) : (⟨S100000x256, .f32⟩ : BufTy).Contents (Elt F) :=
  Host.scatterAdd scatter_S100000x256_S400000x1_S400000x256_1_0_0_1 (broadcastInDim S100000x256 ![] bcast_S_S100000x256 (constant S_ .f32 0x00000000#32)) (broadcastInDim S400000x1 ![0] bcast_S400000_S400000x1_0 d) (mulf (Host.gather gather_S100000x256_S400000x1_S400000x256_1_0_n_n_0_1_1256 h (broadcastInDim S400000x1 ![0] bcast_S400000_S400000x1_0 (select (cmpi .slt s (broadcastInDim S400000 ![] bcast_S_S400000 (constantI S_ 32 0#32))) (addi s (broadcastInDim S400000 ![] bcast_S_S400000 (constantI S_ 32 100000#32))) s))) (broadcastInDim S400000x256 ![0, 1] bcast_S400000x1_S400000x256_0_1 n))

/-- A bias vector laid out as one row. -/
def row (b : (⟨S256, .f32⟩ : BufTy).Contents (Elt F)) : (⟨S1x256, .f32⟩ : BufTy).Contents (Elt F) :=
  broadcastInDim S1x256 ![1] bcast_S256_S1x256_1 b

/-- The bias row added to every node's row, then the maximum with zero. -/
def biasRelu (a : (⟨S100000x256, .f32⟩ : BufTy).Contents (Elt F)) (r : (⟨S1x256, .f32⟩ : BufTy).Contents (Elt F)) : (⟨S100000x256, .f32⟩ : BufTy).Contents (Elt F) :=
  maximumf (addf a (broadcastInDim S100000x256 ![0, 1] bcast_S1x256_S100000x256_0_1 r)) (broadcastInDim S100000x256 ![] bcast_S_S100000x256 (constant S_ .f32 0x00000000#32))

/-- The read-out: the mean of the node rows over each graph of the batch, the output map, the logistic function. -/
def tail (bt : (⟨S100000, .i32⟩ : BufTy).Contents (Elt F)) (h : (⟨S100000x256, .f32⟩ : BufTy).Contents (Elt F)) (wo : (⟨S256x2, .f32⟩ : BufTy).Contents (Elt F)) (bo : (⟨S2, .f32⟩ : BufTy).Contents (Elt F)) : (⟨S64x2, .f32⟩ : BufTy).Contents (Elt F) :=
  Host.divf (broadcastInDim S64x2 ![] bcast_S_S64x2 (constant S_ .f32 0x3F800000#32)) (addf (broadcastInDim S64x2 ![] bcast_S_S64x2 (constant S_ .f32 0x3F800000#32)) (Host.exp (Host.negf (addf (Host.dotGeneral dot_S64x256_S256x2_S64x2_1_0_0_1_n_n none (Host.divf (Host.scatterAdd scatter_S64x256_S100000x1_S100000x256_1_0_0_1 (broadcastInDim S64x256 ![] bcast_S_S64x256 (constant S_ .f32 0x00000000#32)) (broadcastInDim S100000x1 ![0] bcast_S100000_S100000x1_0 bt) h) (broadcastInDim S64x256 ![0, 1] bcast_S64x1_S64x256_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 bt) (broadcastInDim S100000 ![] bcast_S_S100000 (constant S_ .f32 0x3F800000#32))) (broadcastInDim S64 ![] bcast_S_S64 (constant S_ .f32 0x3F800000#32)))))) wo) (broadcastInDim S64x2 ![0, 1] bcast_S1x2_S64x2_0_1 (broadcastInDim S1x2 ![1] bcast_S2_S1x2_1 bo))))))

/-- One hidden layer. -/
def layer (s d : (⟨S400000, .i32⟩ : BufTy).Contents (Elt F)) (n : (⟨S400000x1, .f32⟩ : BufTy).Contents (Elt F)) (h : (⟨S100000x256, .f32⟩ : BufTy).Contents (Elt F)) (w : (⟨S256x256, .f32⟩ : BufTy).Contents (Elt F)) (b : (⟨S256, .f32⟩ : BufTy).Contents (Elt F)) :
    (⟨S100000x256, .f32⟩ : BufTy).Contents (Elt F) :=
  biasRelu (agg s d n (dot h w)) (row b)

/-- The first layer. -/
def layer1 (s d : (⟨S400000, .i32⟩ : BufTy).Contents (Elt F)) (n : (⟨S400000x1, .f32⟩ : BufTy).Contents (Elt F)) (x : (⟨S100000x3, .f32⟩ : BufTy).Contents (Elt F)) (w : (⟨S3x256, .f32⟩ : BufTy).Contents (Elt F)) (b : (⟨S256, .f32⟩ : BufTy).Contents (Elt F)) :
    (⟨S100000x256, .f32⟩ : BufTy).Contents (Elt F) :=
  biasRelu (agg s d n (dot1 x w)) (row b)

/-- The whole network as a function of the fifteen argument arrays. -/
def net (x : (⟨S100000x3, .f32⟩ : BufTy).Contents (Elt F)) (e : (⟨S2x300000, .i32⟩ : BufTy).Contents (Elt F)) (bt : (⟨S100000, .i32⟩ : BufTy).Contents (Elt F))
    (w1 : (⟨S3x256, .f32⟩ : BufTy).Contents (Elt F)) (b1 : (⟨S256, .f32⟩ : BufTy).Contents (Elt F)) (w2 : (⟨S256x256, .f32⟩ : BufTy).Contents (Elt F)) (b2 : (⟨S256, .f32⟩ : BufTy).Contents (Elt F))
    (w3 : (⟨S256x256, .f32⟩ : BufTy).Contents (Elt F)) (b3 : (⟨S256, .f32⟩ : BufTy).Contents (Elt F)) (w4 : (⟨S256x256, .f32⟩ : BufTy).Contents (Elt F)) (b4 : (⟨S256, .f32⟩ : BufTy).Contents (Elt F))
    (w5 : (⟨S256x256, .f32⟩ : BufTy).Contents (Elt F)) (b5 : (⟨S256, .f32⟩ : BufTy).Contents (Elt F)) (wo : (⟨S256x2, .f32⟩ : BufTy).Contents (Elt F)) (bo : (⟨S2, .f32⟩ : BufTy).Contents (Elt F)) : (⟨S64x2, .f32⟩ : BufTy).Contents (Elt F) :=
  tail bt
    (layer (srcV e) (dstV e) (normV (srcV e) (dstV e))
      (layer (srcV e) (dstV e) (normV (srcV e) (dstV e))
        (layer (srcV e) (dstV e) (normV (srcV e) (dstV e))
          (layer (srcV e) (dstV e) (normV (srcV e) (dstV e))
            (layer1 (srcV e) (dstV e) (normV (srcV e) (dstV e)) x w1 b1) w2 b2) w3 b3) w4 b4) w5 b5) wo bo

set_option maxRecDepth 8192 in
/-- The reference's result is the network of its arguments: its composed term is these definitions unfolded. -/
theorem ref_eq (m : (ℓ : Loc nD τ sig) → Buf (Elt F) ℓ) (c : Dev nD) :
    Cert.ReferenceIdeal.ValueP.res_main_v137 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Cert.ReferenceIdeal.ValueP.res_main_v137 net layer layer1 tail biasRelu row agg dot dot1 normV srcV dstV
  rfl

end Generic

/-! ## The two TensorCore operations at a coordinate, at the extended reals -/

/-- The product at (p, q): 256 terms. -/
theorem dot_apply (h : FVec Ideal S100000x256 .f32) (w : FVec Ideal S256x256 .f32) (p : Fin 100000) (q : Fin 256) :
    dot (F := Ideal) h w (ix2 p q) = ∑ k : Fin 256, h (ix2 p k) * w (ix2 k q) := by
  unfold dot
  exact Cert.LibHostDense.hostDot_plain_apply dot_S100000x256_S256x256_S100000x256_1_0_0_1_n_n rfl rfl rfl rfl rfl rfl none h w p q

/-- The first layer's product at (p, q): 3 terms. -/
theorem dot1_apply (x : FVec Ideal S100000x3 .f32) (w : FVec Ideal S3x256 .f32) (p : Fin 100000) (q : Fin 256) :
    dot1 (F := Ideal) x w (ix2 p q) = ∑ k : Fin 3, x (ix2 p k) * w (ix2 k q) := by
  unfold dot1
  exact Cert.LibHostDense.hostDot_plain_apply dot_S100000x3_S3x256_S100000x256_1_0_0_1_n_n rfl rfl rfl rfl rfl rfl none x w p q

/-- The bias-maximum at (p, q). -/
theorem biasRelu_apply (a : FVec Ideal S100000x256 .f32) (r : FVec Ideal S1x256 .f32) (p : Fin 100000) (q : Fin 256) :
    biasRelu (F := Ideal) a r (ix2 p q) = max (a (ix2 p q) + r (ix2 (0 : Fin 1) q)) (Ideal.ofBits .f32 0x00000000#32) := by
  unfold biasRelu
  rw [maximumf_apply, addf_apply, Cert.LibHostDense.bcastRows_apply, Cert.LibHostDense.bcastScalar_apply, constant_apply]

end Cert.Gcn.Spec

end
-- ==== Proof.Prelude.lean ====
/-
  The edge data the idealized kernel program computes before its first launch are the network's: the source numbers,
  the destination numbers and the edge weights, as functions of the edge-list argument.

  The program's first three host stretches write them into three buffers; evaluating those stretches' operations one
  after the other from the launch memory gives, operation for operation, the terms the network's definitions unfold to.
-/
import proofs.«109091_j76974403879378_1_alg».proof.Proof.Gen.KernelIdeal.Frame
import proofs.«109091_j76974403879378_1_alg».proof.Proof.Spec
import proofs.«109091_j76974403879378_1_alg».proof.Proof.LibConcatPair
import proofs.«109091_j76974403879378_1_alg».proof.Proof.LibTyped
import proofs.«109091_j76974403879378_1_alg».proof.Proof.LibTypedLit

set_option maxRecDepth 16384

noncomputable section

namespace Cert.Gcn.Chain

open Cert.KernelIdeal Cert.KernelIdeal.Gen
open Idealize.ShloMosaic Idealize.ShloMosaic.TcCoe Idealize.SL.Sem Idealize.ShloMosaic.StableHlo

/-- What a buffer holds after a listed stretch of host operations: each operation's result at its own buffer is its
    function of its operands' contents, any other buffer is untouched; a concatenate is read as a function of its two
    parts so that the evaluation goes on inside them. -/
macro "eval_after" : tactic => `(tactic|
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.LibConcatPair.concatenate_pair])

variable (m : (ℓ : Loc nD τ sig) → Buf (Elt Ideal) ℓ) (ρ : Dev nD → PrngReg)

/-- The source numbers of the launch's edge list. -/
def S (c : Dev nD) := Cert.Gcn.Spec.srcV (F := Ideal) (m ((c : Thread nD τ).loc main_arg1))
/-- The destination numbers. -/
def D (c : Dev nD) := Cert.Gcn.Spec.dstV (F := Ideal) (m ((c : Thread nD τ).loc main_arg1))
/-- The edge weights. -/
def Nm (c : Dev nD) := Cert.Gcn.Spec.normV (F := Ideal) (S m c) (D m c)

theorem v3_at3 (c : Dev nD) : W3 m ρ c (Proc.devRef .tc main_v3) = S m c := by
  show after hostOps0_2 (after hostOps0_1 (after hostOps0 (W0 m ρ c))) (Proc.devRef .tc main_v3) = _
  eval_after
  unfold S Cert.Gcn.Spec.srcV
  rfl

theorem v6_at3 (c : Dev nD) : W3 m ρ c (Proc.devRef .tc main_v6) = D m c := by
  show after hostOps0_2 (after hostOps0_1 (after hostOps0 (W0 m ρ c))) (Proc.devRef .tc main_v6) = _
  eval_after
  unfold D Cert.Gcn.Spec.dstV
  rfl

theorem v30_at3 (c : Dev nD) : W3 m ρ c (Proc.devRef .tc main_v30) = Nm m c := by
  show after hostOps0_2 (after hostOps0_1 (after hostOps0 (W0 m ρ c))) (Proc.devRef .tc main_v30) = _
  eval_after
  simp only [Cert.LibTyped.ofBuf_toBuf, Cert.LibTyped.toBuf_ofBuf]
  repeat rw [Cert.LibTypedLit.ofBuf_of]
  repeat rw [Cert.LibTypedLit.toBuf_of]
  unfold Nm S D Cert.Gcn.Spec.normV Cert.Gcn.Spec.srcV Cert.Gcn.Spec.dstV
  rfl

end Cert.Gcn.Chain

end
-- ==== Proof.Carry.lean ====
/-
  Buffers that a stretch of the program does not write keep their contents across it.

  The idealized kernel program runs nineteen segments. An argument array is written by none of them, so at every
  segment boundary it still holds its launch contents; the source numbers, the destination numbers and the edge
  weights are computed once, before the first launch, and no later segment writes them, so every later boundary
  still holds what the first launch found.
-/
import proofs.«109091_j76974403879378_1_alg».proof.Proof.Gen.KernelIdeal.Frame
import Idealize.ShloMosaic.PureOps.Ideal

set_option maxRecDepth 16384

noncomputable section

namespace Cert.Gcn.Carry

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A host stretch none of whose operations writes the buffer leaves it as it was: the stretch's operations are listed,
    each one's written buffer is another reference. -/
macro "keep_host" : tactic => `(tactic|
  exact StableHlo.after_of_forall_not_mem _ _ (List.forall_iff_forall_mem.mp (by
    simp only [hostOps0, hostOps0_1, hostOps0_2, hostOps1, hostOps3, hostOps5, hostOps7, hostOps9, hostOps10,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The arguments, where a segment reads them -/

/-- Argument 0 at boundary 3 is as launched. -/
theorem arg0_at3 (c : Dev nD) :
    W3 m ρ c (Proc.devRef .tc main_arg0) = m ((c : Thread nD τ).loc main_arg0) :=
  calc W3 m ρ c (Proc.devRef .tc main_arg0)
    _ = W2 m ρ c (Proc.devRef .tc main_arg0) := by keep_host
    _ = W1 m ρ c (Proc.devRef .tc main_arg0) := by keep_host
    _ = W0 m ρ c (Proc.devRef .tc main_arg0) := by keep_host
    _ = m ((c : Thread nD τ).loc main_arg0) := rfl

/-- Argument 3 at boundary 3 is as launched. -/
theorem arg3_at3 (c : Dev nD) :
    W3 m ρ c (Proc.devRef .tc main_arg3) = m ((c : Thread nD τ).loc main_arg3) :=
  calc W3 m ρ c (Proc.devRef .tc main_arg3)
    _ = W2 m ρ c (Proc.devRef .tc main_arg3) := by keep_host
    _ = W1 m ρ c (Proc.devRef .tc main_arg3) := by keep_host
    _ = W0 m ρ c (Proc.devRef .tc main_arg3) := by keep_host
    _ = m ((c : Thread nD τ).loc main_arg3) := rfl

/-- Argument 4 at boundary 4 is as launched. -/
theorem arg4_at4 (c : Dev nD) :
    W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by keep_host
    _ = W1 m ρ c (Proc.devRef .tc main_arg4) := by keep_host
    _ = W0 m ρ c (Proc.devRef .tc main_arg4) := by keep_host
    _ = m ((c : Thread nD τ).loc main_arg4) := rfl

/-- Argument 5 at boundary 6 is as launched. -/
theorem arg5_at6 (c : Dev nD) :
    W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by keep_host
    _ = W3 m ρ c (Proc.devRef .tc main_arg5) := W4_of_ne m ρ c main_arg5 (by decide)
    _ = W2 m ρ c (Proc.devRef .tc main_arg5) := by keep_host
    _ = W1 m ρ c (Proc.devRef .tc main_arg5) := by keep_host
    _ = W0 m ρ c (Proc.devRef .tc main_arg5) := by keep_host
    _ = m ((c : Thread nD τ).loc main_arg5) := rfl

/-- Argument 6 at boundary 7 is as launched. -/
theorem arg6_at7 (c : Dev nD) :
    W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by keep_host
    _ = W3 m ρ c (Proc.devRef .tc main_arg6) := W4_of_ne m ρ c main_arg6 (by decide)
    _ = W2 m ρ c (Proc.devRef .tc main_arg6) := by keep_host
    _ = W1 m ρ c (Proc.devRef .tc main_arg6) := by keep_host
    _ = W0 m ρ c (Proc.devRef .tc main_arg6) := by keep_host
    _ = m ((c : Thread nD τ).loc main_arg6) := rfl

/-- Argument 7 at boundary 9 is as launched. -/
theorem arg7_at9 (c : Dev nD) :
    W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := by keep_host
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by keep_host
    _ = W3 m ρ c (Proc.devRef .tc main_arg7) := W4_of_ne m ρ c main_arg7 (by decide)
    _ = W2 m ρ c (Proc.devRef .tc main_arg7) := by keep_host
    _ = W1 m ρ c (Proc.devRef .tc main_arg7) := by keep_host
    _ = W0 m ρ c (Proc.devRef .tc main_arg7) := by keep_host
    _ = m ((c : Thread nD τ).loc main_arg7) := rfl

/-- Argument 8 at boundary 10 is as launched. -/
theorem arg8_at10 (c : Dev nD) :
    W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by keep_host
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by keep_host
    _ = W3 m ρ c (Proc.devRef .tc main_arg8) := W4_of_ne m ρ c main_arg8 (by decide)
    _ = W2 m ρ c (Proc.devRef .tc main_arg8) := by keep_host
    _ = W1 m ρ c (Proc.devRef .tc main_arg8) := by keep_host
    _ = W0 m ρ c (Proc.devRef .tc main_arg8) := by keep_host
    _ = m ((c : Thread nD τ).loc main_arg8) := rfl

/-- Argument 9 at boundary 12 is as launched. -/
theorem arg9_at12 (c : Dev nD) :
    W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := by keep_host
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by keep_host
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by keep_host
    _ = W3 m ρ c (Proc.devRef .tc main_arg9) := W4_of_ne m ρ c main_arg9 (by decide)
    _ = W2 m ρ c (Proc.devRef .tc main_arg9) := by keep_host
    _ = W1 m ρ c (Proc.devRef .tc main_arg9) := by keep_host
    _ = W0 m ρ c (Proc.devRef .tc main_arg9) := by keep_host
    _ = m ((c : Thread nD τ).loc main_arg9) := rfl

/-- Argument 10 at boundary 13 is as launched. -/
theorem arg10_at13 (c : Dev nD) :
    W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := W12_of_ne m ρ c main_arg10 (by decide)
    _ = W10 m ρ c (Proc.devRef .tc main_arg10) := by keep_host
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := by keep_host
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by keep_host
    _ = W3 m ρ c (Proc.devRef .tc main_arg10) := W4_of_ne m ρ c main_arg10 (by decide)
    _ = W2 m ρ c (Proc.devRef .tc main_arg10) := by keep_host
    _ = W1 m ρ c (Proc.devRef .tc main_arg10) := by keep_host
    _ = W0 m ρ c (Proc.devRef .tc main_arg10) := by keep_host
    _ = m ((c : Thread nD τ).loc main_arg10) := rfl

/-- Argument 11 at boundary 15 is as launched. -/
theorem arg11_at15 (c : Dev nD) :
    W15 m ρ c (Proc.devRef .tc main_arg11) = m ((c : Thread nD τ).loc main_arg11) :=
  calc W15 m ρ c (Proc.devRef .tc main_arg11)
    _ = W14 m ρ c (Proc.devRef .tc main_arg11) := W15_of_ne m ρ c main_arg11 (by decide)
    _ = W13 m ρ c (Proc.devRef .tc main_arg11) := by keep_host
    _ = W12 m ρ c (Proc.devRef .tc main_arg11) := W13_of_ne m ρ c main_arg11 (by decide)
    _ = W11 m ρ c (Proc.devRef .tc main_arg11) := W12_of_ne m ρ c main_arg11 (by decide)
    _ = W10 m ρ c (Proc.devRef .tc main_arg11) := by keep_host
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := by keep_host
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by keep_host
    _ = W3 m ρ c (Proc.devRef .tc main_arg11) := W4_of_ne m ρ c main_arg11 (by decide)
    _ = W2 m ρ c (Proc.devRef .tc main_arg11) := by keep_host
    _ = W1 m ρ c (Proc.devRef .tc main_arg11) := by keep_host
    _ = W0 m ρ c (Proc.devRef .tc main_arg11) := by keep_host
    _ = m ((c : Thread nD τ).loc main_arg11) := rfl

/-- Argument 12 at boundary 16 is as launched. -/
theorem arg12_at16 (c : Dev nD) :
    W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := W15_of_ne m ρ c main_arg12 (by decide)
    _ = W13 m ρ c (Proc.devRef .tc main_arg12) := by keep_host
    _ = W12 m ρ c (Proc.devRef .tc main_arg12) := W13_of_ne m ρ c main_arg12 (by decide)
    _ = W11 m ρ c (Proc.devRef .tc main_arg12) := W12_of_ne m ρ c main_arg12 (by decide)
    _ = W10 m ρ c (Proc.devRef .tc main_arg12) := by keep_host
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := by keep_host
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by keep_host
    _ = W3 m ρ c (Proc.devRef .tc main_arg12) := W4_of_ne m ρ c main_arg12 (by decide)
    _ = W2 m ρ c (Proc.devRef .tc main_arg12) := by keep_host
    _ = W1 m ρ c (Proc.devRef .tc main_arg12) := by keep_host
    _ = W0 m ρ c (Proc.devRef .tc main_arg12) := by keep_host
    _ = m ((c : Thread nD τ).loc main_arg12) := rfl

/-- Argument 2 at boundary 18 is as launched. -/
theorem arg2_at18 (c : Dev nD) :
    W18 m ρ c (Proc.devRef .tc main_arg2) = m ((c : Thread nD τ).loc main_arg2) :=
  calc W18 m ρ c (Proc.devRef .tc main_arg2)
    _ = W17 m ρ c (Proc.devRef .tc main_arg2) := W18_of_ne m ρ c main_arg2 (by decide)
    _ = W16 m ρ c (Proc.devRef .tc main_arg2) := by keep_host
    _ = W15 m ρ c (Proc.devRef .tc main_arg2) := W16_of_ne m ρ c main_arg2 (by decide)
    _ = W14 m ρ c (Proc.devRef .tc main_arg2) := W15_of_ne m ρ c main_arg2 (by decide)
    _ = W13 m ρ c (Proc.devRef .tc main_arg2) := by keep_host
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := by keep_host
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := by keep_host
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by keep_host
    _ = W3 m ρ c (Proc.devRef .tc main_arg2) := W4_of_ne m ρ c main_arg2 (by decide)
    _ = W2 m ρ c (Proc.devRef .tc main_arg2) := by keep_host
    _ = W1 m ρ c (Proc.devRef .tc main_arg2) := by keep_host
    _ = W0 m ρ c (Proc.devRef .tc main_arg2) := by keep_host
    _ = m ((c : Thread nD τ).loc main_arg2) := rfl

/-- Argument 13 at boundary 18 is as launched. -/
theorem arg13_at18 (c : Dev nD) :
    W18 m ρ c (Proc.devRef .tc main_arg13) = m ((c : Thread nD τ).loc main_arg13) :=
  calc W18 m ρ c (Proc.devRef .tc main_arg13)
    _ = W17 m ρ c (Proc.devRef .tc main_arg13) := W18_of_ne m ρ c main_arg13 (by decide)
    _ = W16 m ρ c (Proc.devRef .tc main_arg13) := by keep_host
    _ = W15 m ρ c (Proc.devRef .tc main_arg13) := W16_of_ne m ρ c main_arg13 (by decide)
    _ = W14 m ρ c (Proc.devRef .tc main_arg13) := W15_of_ne m ρ c main_arg13 (by decide)
    _ = W13 m ρ c (Proc.devRef .tc main_arg13) := by keep_host
    _ = W12 m ρ c (Proc.devRef .tc main_arg13) := W13_of_ne m ρ c main_arg13 (by decide)
    _ = W11 m ρ c (Proc.devRef .tc main_arg13) := W12_of_ne m ρ c main_arg13 (by decide)
    _ = W10 m ρ c (Proc.devRef .tc main_arg13) := by keep_host
    _ = W9 m ρ c (Proc.devRef .tc main_arg13) := W10_of_ne m ρ c main_arg13 (by decide)
    _ = W8 m ρ c (Proc.devRef .tc main_arg13) := W9_of_ne m ρ c main_arg13 (by decide)
    _ = W7 m ρ c (Proc.devRef .tc main_arg13) := by keep_host
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := by keep_host
    _ = W3 m ρ c (Proc.devRef .tc main_arg13) := W4_of_ne m ρ c main_arg13 (by decide)
    _ = W2 m ρ c (Proc.devRef .tc main_arg13) := by keep_host
    _ = W1 m ρ c (Proc.devRef .tc main_arg13) := by keep_host
    _ = W0 m ρ c (Proc.devRef .tc main_arg13) := by keep_host
    _ = m ((c : Thread nD τ).loc main_arg13) := rfl

/-- Argument 14 at boundary 18 is as launched. -/
theorem arg14_at18 (c : Dev nD) :
    W18 m ρ c (Proc.devRef .tc main_arg14) = m ((c : Thread nD τ).loc main_arg14) :=
  calc W18 m ρ c (Proc.devRef .tc main_arg14)
    _ = W17 m ρ c (Proc.devRef .tc main_arg14) := W18_of_ne m ρ c main_arg14 (by decide)
    _ = W16 m ρ c (Proc.devRef .tc main_arg14) := by keep_host
    _ = W15 m ρ c (Proc.devRef .tc main_arg14) := W16_of_ne m ρ c main_arg14 (by decide)
    _ = W14 m ρ c (Proc.devRef .tc main_arg14) := W15_of_ne m ρ c main_arg14 (by decide)
    _ = W13 m ρ c (Proc.devRef .tc main_arg14) := by keep_host
    _ = W12 m ρ c (Proc.devRef .tc main_arg14) := W13_of_ne m ρ c main_arg14 (by decide)
    _ = W11 m ρ c (Proc.devRef .tc main_arg14) := W12_of_ne m ρ c main_arg14 (by decide)
    _ = W10 m ρ c (Proc.devRef .tc main_arg14) := by keep_host
    _ = W9 m ρ c (Proc.devRef .tc main_arg14) := W10_of_ne m ρ c main_arg14 (by decide)
    _ = W8 m ρ c (Proc.devRef .tc main_arg14) := W9_of_ne m ρ c main_arg14 (by decide)
    _ = W7 m ρ c (Proc.devRef .tc main_arg14) := by keep_host
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := by keep_host
    _ = W3 m ρ c (Proc.devRef .tc main_arg14) := W4_of_ne m ρ c main_arg14 (by decide)
    _ = W2 m ρ c (Proc.devRef .tc main_arg14) := by keep_host
    _ = W1 m ρ c (Proc.devRef .tc main_arg14) := by keep_host
    _ = W0 m ρ c (Proc.devRef .tc main_arg14) := by keep_host
    _ = m ((c : Thread nD τ).loc main_arg14) := rfl

/-! ## The edge data, from the first launch's entry on -/

/-- `main_v3` at boundary 4 is what the first launch found. -/
theorem v3_at4 (c : Dev nD) :
    W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- `main_v3` at boundary 7 is what the first launch found. -/
theorem v3_at7 (c : Dev nD) :
    W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host
    _ = W3 m ρ c (Proc.devRef .tc main_v3) := W4_of_ne m ρ c main_v3 (by decide)

/-- `main_v3` at boundary 10 is what the first launch found. -/
theorem v3_at10 (c : Dev nD) :
    W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by keep_host
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host
    _ = W3 m ρ c (Proc.devRef .tc main_v3) := W4_of_ne m ρ c main_v3 (by decide)

/-- `main_v3` at boundary 13 is what the first launch found. -/
theorem v3_at13 (c : Dev nD) :
    W13 m ρ c (Proc.devRef .tc main_v3) = W3 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := by keep_host
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by keep_host
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host
    _ = W3 m ρ c (Proc.devRef .tc main_v3) := W4_of_ne m ρ c main_v3 (by decide)

/-- `main_v3` at boundary 16 is what the first launch found. -/
theorem v3_at16 (c : Dev nD) :
    W16 m ρ c (Proc.devRef .tc main_v3) = W3 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := W15_of_ne m ρ c main_v3 (by decide)
    _ = W13 m ρ c (Proc.devRef .tc main_v3) := by keep_host
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := by keep_host
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by keep_host
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host
    _ = W3 m ρ c (Proc.devRef .tc main_v3) := W4_of_ne m ρ c main_v3 (by decide)

/-- `main_v6` at boundary 4 is what the first launch found. -/
theorem v6_at4 (c : Dev nD) :
    W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- `main_v6` at boundary 7 is what the first launch found. -/
theorem v6_at7 (c : Dev nD) :
    W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_host
    _ = W3 m ρ c (Proc.devRef .tc main_v6) := W4_of_ne m ρ c main_v6 (by decide)

/-- `main_v6` at boundary 10 is what the first launch found. -/
theorem v6_at10 (c : Dev nD) :
    W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by keep_host
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_host
    _ = W3 m ρ c (Proc.devRef .tc main_v6) := W4_of_ne m ρ c main_v6 (by decide)

/-- `main_v6` at boundary 13 is what the first launch found. -/
theorem v6_at13 (c : Dev nD) :
    W13 m ρ c (Proc.devRef .tc main_v6) = W3 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := by keep_host
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by keep_host
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_host
    _ = W3 m ρ c (Proc.devRef .tc main_v6) := W4_of_ne m ρ c main_v6 (by decide)

/-- `main_v6` at boundary 16 is what the first launch found. -/
theorem v6_at16 (c : Dev nD) :
    W16 m ρ c (Proc.devRef .tc main_v6) = W3 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := W15_of_ne m ρ c main_v6 (by decide)
    _ = W13 m ρ c (Proc.devRef .tc main_v6) := by keep_host
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := by keep_host
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by keep_host
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_host
    _ = W3 m ρ c (Proc.devRef .tc main_v6) := W4_of_ne m ρ c main_v6 (by decide)

/-- `main_v30` at boundary 4 is what the first launch found. -/
theorem v30_at4 (c : Dev nD) :
    W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

/-- `main_v30` at boundary 7 is what the first launch found. -/
theorem v30_at7 (c : Dev nD) :
    W7 m ρ c (Proc.devRef .tc main_v30) = W3 m ρ c (Proc.devRef .tc main_v30) :=
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := by keep_host
    _ = W3 m ρ c (Proc.devRef .tc main_v30) := W4_of_ne m ρ c main_v30 (by decide)

/-- `main_v30` at boundary 10 is what the first launch found. -/
theorem v30_at10 (c : Dev nD) :
    W10 m ρ c (Proc.devRef .tc main_v30) = W3 m ρ c (Proc.devRef .tc main_v30) :=
  calc W10 m ρ c (Proc.devRef .tc main_v30)
    _ = W9 m ρ c (Proc.devRef .tc main_v30) := W10_of_ne m ρ c main_v30 (by decide)
    _ = W8 m ρ c (Proc.devRef .tc main_v30) := W9_of_ne m ρ c main_v30 (by decide)
    _ = W7 m ρ c (Proc.devRef .tc main_v30) := by keep_host
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := by keep_host
    _ = W3 m ρ c (Proc.devRef .tc main_v30) := W4_of_ne m ρ c main_v30 (by decide)

/-- `main_v30` at boundary 13 is what the first launch found. -/
theorem v30_at13 (c : Dev nD) :
    W13 m ρ c (Proc.devRef .tc main_v30) = W3 m ρ c (Proc.devRef .tc main_v30) :=
  calc W13 m ρ c (Proc.devRef .tc main_v30)
    _ = W12 m ρ c (Proc.devRef .tc main_v30) := W13_of_ne m ρ c main_v30 (by decide)
    _ = W11 m ρ c (Proc.devRef .tc main_v30) := W12_of_ne m ρ c main_v30 (by decide)
    _ = W10 m ρ c (Proc.devRef .tc main_v30) := by keep_host
    _ = W9 m ρ c (Proc.devRef .tc main_v30) := W10_of_ne m ρ c main_v30 (by decide)
    _ = W8 m ρ c (Proc.devRef .tc main_v30) := W9_of_ne m ρ c main_v30 (by decide)
    _ = W7 m ρ c (Proc.devRef .tc main_v30) := by keep_host
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := by keep_host
    _ = W3 m ρ c (Proc.devRef .tc main_v30) := W4_of_ne m ρ c main_v30 (by decide)

/-- `main_v30` at boundary 16 is what the first launch found. -/
theorem v30_at16 (c : Dev nD) :
    W16 m ρ c (Proc.devRef .tc main_v30) = W3 m ρ c (Proc.devRef .tc main_v30) :=
  calc W16 m ρ c (Proc.devRef .tc main_v30)
    _ = W15 m ρ c (Proc.devRef .tc main_v30) := W16_of_ne m ρ c main_v30 (by decide)
    _ = W14 m ρ c (Proc.devRef .tc main_v30) := W15_of_ne m ρ c main_v30 (by decide)
    _ = W13 m ρ c (Proc.devRef .tc main_v30) := by keep_host
    _ = W12 m ρ c (Proc.devRef .tc main_v30) := W13_of_ne m ρ c main_v30 (by decide)
    _ = W11 m ρ c (Proc.devRef .tc main_v30) := W12_of_ne m ρ c main_v30 (by decide)
    _ = W10 m ρ c (Proc.devRef .tc main_v30) := by keep_host
    _ = W9 m ρ c (Proc.devRef .tc main_v30) := W10_of_ne m ρ c main_v30 (by decide)
    _ = W8 m ρ c (Proc.devRef .tc main_v30) := W9_of_ne m ρ c main_v30 (by decide)
    _ = W7 m ρ c (Proc.devRef .tc main_v30) := by keep_host
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := by keep_host
    _ = W3 m ρ c (Proc.devRef .tc main_v30) := W4_of_ne m ρ c main_v30 (by decide)

end Cert.Gcn.Carry

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.Payloads.lean ====
/-
  What each kernel body stores, read at a coordinate, at the extended reals.

  The ten launches use two bodies. A product body rounds both operands to bf16 (the identity on the extended reals) and
  multiplies them into a zero accumulator: entry (p, q) of the stored block is the sum over k of x(p, k) · w(k, q).
  A bias body adds the one row of the bias block to every row of the input block and takes the maximum with zero:
  entry (p, q) is max (x(p, q) + b(0, q)) 0.
-/
import proofs.«109091_j76974403879378_1_alg».proof.Proof.Gen.KernelIdeal.Skeleton
import proofs.«109091_j76974403879378_1_alg».proof.Proof.LibPlainDot
import Idealize.ShloMosaic.Lib.Pipeline.Value
import Idealize.ShloMosaic.Lib.ValueIdx
import Idealize.ShloMosaic.Lib.ValueLayout

noncomputable section

namespace Cert.Gcn.Payload

open Cert.KernelIdeal Cert.KernelIdeal.Gen Idealize.ShloMosaic Idealize.ShloMosaic.ValueIdx
open scoped BigOperators

/-- The first layer's product body: three terms per entry. -/
theorem mm0_apply (x0 : Vec Ideal S5000x3 .f32) (x1 : Vec Ideal S3x256 .f32) (p : Fin 5000) (q : Fin 256) :
    k0_pay1 (F := Ideal) x0 x1 (ix2 p q) = ∑ k : Fin 3, x0 (ix2 p k) * x1 (ix2 k q) := by
  unfold k0_pay1
  exact Cert.LibPlainDot.matmul_plain_apply dot_S5000x3_S3x256_S5000x256_1_0_0_1_n_n rfl rfl rfl rfl rfl rfl none _ _ p q

/-- Launch 2's product body: 256 terms per entry (the input block is first cast to its own shape). -/
theorem mm2_apply (x0 : Vec Ideal S5000x256 .f32) (x1 : Vec Ideal S256x256 .f32) (p : Fin 5000) (q : Fin 256) :
    k2_pay1 (F := Ideal) x0 x1 (ix2 p q) = ∑ k : Fin 256, x0 (ix2 p k) * x1 (ix2 k q) := by
  unfold k2_pay1
  refine (Cert.LibPlainDot.matmul_plain_apply dot_S5000x256_S256x256_S5000x256_1_0_0_1_n_n rfl rfl rfl rfl rfl rfl none _ _ p q).trans ?_
  refine Finset.sum_congr rfl fun k _ => ?_
  show (shapeCast S5000x256 x0 shapeCasts_S5000x256_S5000x256) (ix2 p k) * x1 (ix2 k q) = _
  rw [shapeCast_self]

/-- Launch 4's product body: 256 terms per entry (the input block is first cast to its own shape). -/
theorem mm4_apply (x0 : Vec Ideal S5000x256 .f32) (x1 : Vec Ideal S256x256 .f32) (p : Fin 5000) (q : Fin 256) :
    k4_pay1 (F := Ideal) x0 x1 (ix2 p q) = ∑ k : Fin 256, x0 (ix2 p k) * x1 (ix2 k q) := by
  unfold k4_pay1
  refine (Cert.LibPlainDot.matmul_plain_apply dot_S5000x256_S256x256_S5000x256_1_0_0_1_n_n rfl rfl rfl rfl rfl rfl none _ _ p q).trans ?_
  refine Finset.sum_congr rfl fun k _ => ?_
  show (shapeCast S5000x256 x0 shapeCasts_S5000x256_S5000x256) (ix2 p k) * x1 (ix2 k q) = _
  rw [shapeCast_self]

/-- Launch 6's product body: 256 terms per entry (the input block is first cast to its own shape). -/
theorem mm6_apply (x0 : Vec Ideal S5000x256 .f32) (x1 : Vec Ideal S256x256 .f32) (p : Fin 5000) (q : Fin 256) :
    k6_pay1 (F := Ideal) x0 x1 (ix2 p q) = ∑ k : Fin 256, x0 (ix2 p k) * x1 (ix2 k q) := by
  unfold k6_pay1
  refine (Cert.LibPlainDot.matmul_plain_apply dot_S5000x256_S256x256_S5000x256_1_0_0_1_n_n rfl rfl rfl rfl rfl rfl none _ _ p q).trans ?_
  refine Finset.sum_congr rfl fun k _ => ?_
  show (shapeCast S5000x256 x0 shapeCasts_S5000x256_S5000x256) (ix2 p k) * x1 (ix2 k q) = _
  rw [shapeCast_self]

/-- Launch 8's product body: 256 terms per entry (the input block is first cast to its own shape). -/
theorem mm8_apply (x0 : Vec Ideal S5000x256 .f32) (x1 : Vec Ideal S256x256 .f32) (p : Fin 5000) (q : Fin 256) :
    k8_pay1 (F := Ideal) x0 x1 (ix2 p q) = ∑ k : Fin 256, x0 (ix2 p k) * x1 (ix2 k q) := by
  unfold k8_pay1
  refine (Cert.LibPlainDot.matmul_plain_apply dot_S5000x256_S256x256_S5000x256_1_0_0_1_n_n rfl rfl rfl rfl rfl rfl none _ _ p q).trans ?_
  refine Finset.sum_congr rfl fun k _ => ?_
  show (shapeCast S5000x256 x0 shapeCasts_S5000x256_S5000x256) (ix2 p k) * x1 (ix2 k q) = _
  rw [shapeCast_self]

/-- Launch 1's bias body: the bias row added to every row, then the maximum with zero. -/
theorem br1_apply (x0 : Vec Ideal S5000x256 .f32) (x1 : Vec Ideal S1x256 .f32) (p : Fin 5000) (q : Fin 256) :
    k1_pay1 (F := Ideal) x0 x1 (ix2 p q)
      = max (x0 (ix2 p q) + x1 (ix2 (0 : Fin 1) q)) (Ideal.ofBits .f32 0x00000000#32) := by
  unfold k1_pay1
  show max ((shapeCast S5000x256 x0 shapeCasts_S5000x256_S5000x256) (ix2 p q)
      + (broadcastTo S5000x256 (shapeCast S1x256 x1 shapeCasts_S1x256_S1x256) broadcasts_S1x256_S5000x256) (ix2 p q))
      (Ideal.ofBits .f32 0x00000000#32) = _
  rw [shapeCast_self, broadcastTo_1b_ab_apply, shapeCast_self]

/-- Launch 3's bias body: the bias row added to every row, then the maximum with zero. -/
theorem br3_apply (x0 : Vec Ideal S5000x256 .f32) (x1 : Vec Ideal S1x256 .f32) (p : Fin 5000) (q : Fin 256) :
    k3_pay1 (F := Ideal) x0 x1 (ix2 p q)
      = max (x0 (ix2 p q) + x1 (ix2 (0 : Fin 1) q)) (Ideal.ofBits .f32 0x00000000#32) := by
  unfold k3_pay1
  show max ((shapeCast S5000x256 x0 shapeCasts_S5000x256_S5000x256) (ix2 p q)
      + (broadcastTo S5000x256 (shapeCast S1x256 x1 shapeCasts_S1x256_S1x256) broadcasts_S1x256_S5000x256) (ix2 p q))
      (Ideal.ofBits .f32 0x00000000#32) = _
  rw [shapeCast_self, broadcastTo_1b_ab_apply, shapeCast_self]

/-- Launch 5's bias body: the bias row added to every row, then the maximum with zero. -/
theorem br5_apply (x0 : Vec Ideal S5000x256 .f32) (x1 : Vec Ideal S1x256 .f32) (p : Fin 5000) (q : Fin 256) :
    k5_pay1 (F := Ideal) x0 x1 (ix2 p q)
      = max (x0 (ix2 p q) + x1 (ix2 (0 : Fin 1) q)) (Ideal.ofBits .f32 0x00000000#32) := by
  unfold k5_pay1
  show max ((shapeCast S5000x256 x0 shapeCasts_S5000x256_S5000x256) (ix2 p q)
      + (broadcastTo S5000x256 (shapeCast S1x256 x1 shapeCasts_S1x256_S1x256) broadcasts_S1x256_S5000x256) (ix2 p q))
      (Ideal.ofBits .f32 0x00000000#32) = _
  rw [shapeCast_self, broadcastTo_1b_ab_apply, shapeCast_self]

/-- Launch 7's bias body: the bias row added to every row, then the maximum with zero. -/
theorem br7_apply (x0 : Vec Ideal S5000x256 .f32) (x1 : Vec Ideal S1x256 .f32) (p : Fin 5000) (q : Fin 256) :
    k7_pay1 (F := Ideal) x0 x1 (ix2 p q)
      = max (x0 (ix2 p q) + x1 (ix2 (0 : Fin 1) q)) (Ideal.ofBits .f32 0x00000000#32) := by
  unfold k7_pay1
  show max ((shapeCast S5000x256 x0 shapeCasts_S5000x256_S5000x256) (ix2 p q)
      + (broadcastTo S5000x256 (shapeCast S1x256 x1 shapeCasts_S1x256_S1x256) broadcasts_S1x256_S5000x256) (ix2 p q))
      (Ideal.ofBits .f32 0x00000000#32) = _
  rw [shapeCast_self, broadcastTo_1b_ab_apply, shapeCast_self]

/-- Launch 9's bias body: the bias row added to every row, then the maximum with zero. -/
theorem br9_apply (x0 : Vec Ideal S5000x256 .f32) (x1 : Vec Ideal S1x256 .f32) (p : Fin 5000) (q : Fin 256) :
    k9_pay1 (F := Ideal) x0 x1 (ix2 p q)
      = max (x0 (ix2 p q) + x1 (ix2 (0 : Fin 1) q)) (Ideal.ofBits .f32 0x00000000#32) := by
  unfold k9_pay1
  show max ((shapeCast S5000x256 x0 shapeCasts_S5000x256_S5000x256) (ix2 p q)
      + (broadcastTo S5000x256 (shapeCast S1x256 x1 shapeCasts_S1x256_S1x256) broadcasts_S1x256_S5000x256) (ix2 p q))
      (Ideal.ofBits .f32 0x00000000#32) = _
  rw [shapeCast_self, broadcastTo_1b_ab_apply, shapeCast_self]

end Cert.Gcn.Payload

end
-- ==== Proof.Region0.lean ====
/-
  Launch 0 (a product): the array it leaves is the whole product of its two operand arrays.

  The grid has 20 points; point t stages rows 5000·t … 5000·t + 4999 of the left operand and the whole right
  operand, and writes back rows 5000·t … 5000·t + 4999 of the result. Entry (p, q) of that block is the sum over k of
  left(5000·t + p, k) · right(k, q), which is entry (5000·t + p, q) of the whole product; the 20 blocks tile the
  100000 rows, so the array ends holding the whole product.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand's and the result's blocks move together down the rows; every other
    block index is 0; there are 20 row blocks. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of the whole product. -/
theorem flushed_eq (c : Dev nD) (t : Fin cfg0.N) :
    (dat0 V c).flushed 2 t
      = ((cfg0.win 2).blk t).view.read (Elt Ideal) (Cert.Gcn.Spec.dot1 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x3) hz, View.ld_unit_zero (S := S3x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win0_2.index t (0 : Fin 2) * 5000 + p.val < 100000 := by have := p.isLt; omega
  show k0_pay1 (iblk0 V c 0 t) (iblk0 V c 1 t) (ix2 p q)
    = Cert.Gcn.Spec.dot1 (F := Ideal) (V c main_arg0) (V c main_arg3) (((cfg0.win 2).blk t).view.emb (ix2 p q))
  have hemb : ((cfg0.win 2).blk t).view.emb (ix2 p q)
      = ix2 (⟨win0_2.index t (0 : Fin 2) * 5000 + p.val, hrow⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 256 + 1 * q.val = q.val; omega
  rw [hemb]
  refine (Cert.Gcn.Payload.mm0_apply (iblk0 V c 0 t) (iblk0 V c 1 t) p q).trans ?_
  refine Eq.trans ?_ (Cert.Gcn.Spec.dot1_apply (V c main_arg0) (V c main_arg3) _ q).symm
  refine Finset.sum_congr rfl fun k _ => ?_
  have h0 : iblk0 V c 0 t (ix2 p k)
      = V c main_arg0 (ix2 (⟨win0_2.index t (0 : Fin 2) * 5000 + p.val, hrow⟩ : Fin 100000) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 3 + 1 * k.val = k.val; omega
  have h1 : iblk0 V c 1 t (ix2 k q) = V c main_arg3 (ix2 k q) := by
    show V c main_arg3 (((cfg0.win 1).blk t).view.emb (ix2 k q)) = _
    refine congrArg _ (funext fun a => Fin.ext ?_)
    match a with
    | ⟨0, _⟩ => show win0_1.index t (0 : Fin 2) * 3 + 1 * k.val = k.val; omega
    | ⟨1, _⟩ => show win0_1.index t (1 : Fin 2) * 256 + 1 * q.val = q.val; omega
  rw [h0, h1]

/-- An index of the result array is in point t's block iff each coordinate is in the block's range. -/
theorem mem_blk (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v31).slice (win0_2.rect t)).set ↔ _
  rw [View.set_slice_whole, Rect.mem_set_unit]
  exact Iff.rfl

/-- Every index of the result array is in some point's block: row r is in block r / 5000. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The array the launch leaves: the whole product of the arrays it found. -/
theorem final (c : Dev nD) :
    (dat0 V c).arrAt 2 cfg0.N = Cert.Gcn.Spec.dot1 (F := Ideal) (V c main_arg0) (V c main_arg3) :=
  (dat0 V c).arrAt_eq_of_cover 2 (Cert.Gcn.Spec.dot1 (F := Ideal) (V c main_arg0) (V c main_arg3)) (fun t _ => flushed_eq V c t) cover

end Cert.Gcn.Region0

end
-- ==== Proof.Region1.lean ====
/-
  Launch 1 (bias and maximum): the array it leaves is the bias row added to every row of its input array, then the
  maximum with zero.

  The grid has 20 points; point t stages rows 5000·t … 5000·t + 4999 of the input and the one bias row, and writes back the
  same rows of the result. Entry (p, q) of that block is max (input(5000·t + p, q) + bias(0, q)) 0, which is entry
  (5000·t + p, q) of the whole result; the 20 blocks tile the 100000 rows.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the result's blocks move together down the rows; every other block
    index is 0; there are 20 row blocks. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every row block is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- What point t writes back is block t of the whole result. -/
theorem flushed_eq (c : Dev nD) (t : Fin cfg1.N) :
    (dat1 V c).flushed 2 t
      = ((cfg1.win 2).blk t).view.read (Elt Ideal) (Cert.Gcn.Spec.biasRelu (F := Ideal) (V c main_v43) (V c main_v44)) := by
  show (cfg1.win 2).cut (grid1.coords t) ((dat1 V c).after 2 t) = _
  rw [after1_2]
  unfold out1_2
  rw [View.canon_unit_zero hz]
  simp only [View.ld_unit_zero (S := S5000x256) hz, View.ld_unit_zero (S := S1x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win1_2.index t (0 : Fin 2) * 5000 + p.val < 100000 := by have := p.isLt; omega
  show k1_pay1 (iblk1 V c 0 t) (iblk1 V c 1 t) (ix2 p q)
    = Cert.Gcn.Spec.biasRelu (F := Ideal) (V c main_v43) (V c main_v44) (((cfg1.win 2).blk t).view.emb (ix2 p q))
  have hemb : ((cfg1.win 2).blk t).view.emb (ix2 p q)
      = ix2 (⟨win1_2.index t (0 : Fin 2) * 5000 + p.val, hrow⟩ : Fin 100000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 256 + 1 * q.val = q.val; omega
  rw [hemb]
  refine (Cert.Gcn.Payload.br1_apply (iblk1 V c 0 t) (iblk1 V c 1 t) p q).trans ?_
  refine Eq.trans ?_ (Cert.Gcn.Spec.biasRelu_apply (V c main_v43) (V c main_v44) _ q).symm
  have h0 : iblk1 V c 0 t (ix2 p q)
      = V c main_v43 (ix2 (⟨win1_2.index t (0 : Fin 2) * 5000 + p.val, hrow⟩ : Fin 100000) q) := by
    show V c main_v43 (((cfg1.win 0).blk t).view.emb (ix2 p q)) = _
    refine congrArg _ (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 256 + 1 * q.val = q.val; omega
  have h1 : iblk1 V c 1 t (ix2 (0 : Fin 1) q) = V c main_v44 (ix2 (0 : Fin 1) q) := by
    show V c main_v44 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * q.val = q.val; omega
  rw [h0, h1]

/-- An index of the result array is in point t's block iff each coordinate is in the block's range. -/
theorem mem_blk (t : Fin cfg1.N) (i : S100000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v45).slice (win1_2.rect t)).set ↔ _
  rw [View.set_slice_whole, Rect.mem_set_unit]
  exact Iff.rfl

/-- Every index of the result array is in some point's block: row r is in block r / 5000. -/
theorem cover (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The array the launch leaves: the bias-maximum of the arrays it found. -/
theorem final (c : Dev nD) :
    (dat1 V c).arrAt 2 cfg1.N = Cert.Gcn.Spec.biasRelu (F := Ideal) (V c main_v43) (V c main_v44) :=
  (dat1 V c).arrAt_eq_of_cover 2 (Cert.Gcn.Spec.biasRelu (F := Ideal) (V c main_v43) (V c main_v44)) (fun t _ => flushed_eq V c t) cover

end Cert.Gcn.Region1

end
-- ==== Proof.Region2.lean ====
/-
  Launch 2 (a product): the array it leaves is the whole product of its two operand arrays.

  The grid has 20 points; point t stages rows 5000·t … 5000·t + 4999 of the left operand and the whole right
  operand, and writes back rows 5000·t … 5000·t + 4999 of the result. Entry (p, q) of that block is the sum over k of
  left(5000·t + p, k) · right(k, q), which is entry (5000·t + p, q) of the whole product; the 20 blocks tile the
  100000 rows, so the array ends holding the whole product.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand's and the result's blocks move together down the rows; every other
    block index is 0; there are 20 row blocks. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every row block is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What point t writes back is block t of the whole product. -/
theorem flushed_eq (c : Dev nD) (t : Fin cfg2.N) :
    (dat2 V c).flushed 2 t
      = ((cfg2.win 2).blk t).view.read (Elt Ideal) (Cert.Gcn.Spec.dot (F := Ideal) (V c main_v45) (V c main_arg5)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win2_2.index t (0 : Fin 2) * 5000 + p.val < 100000 := by have := p.isLt; omega
  show k2_pay1 (iblk2 V c 0 t) (iblk2 V c 1 t) (ix2 p q)
    = Cert.Gcn.Spec.dot (F := Ideal) (V c main_v45) (V c main_arg5) (((cfg2.win 2).blk t).view.emb (ix2 p q))
  have hemb : ((cfg2.win 2).blk t).view.emb (ix2 p q)
      = ix2 (⟨win2_2.index t (0 : Fin 2) * 5000 + p.val, hrow⟩ : Fin 100000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 256 + 1 * q.val = q.val; omega
  rw [hemb]
  refine (Cert.Gcn.Payload.mm2_apply (iblk2 V c 0 t) (iblk2 V c 1 t) p q).trans ?_
  refine Eq.trans ?_ (Cert.Gcn.Spec.dot_apply (V c main_v45) (V c main_arg5) _ q).symm
  refine Finset.sum_congr rfl fun k _ => ?_
  have h0 : iblk2 V c 0 t (ix2 p k)
      = V c main_v45 (ix2 (⟨win2_2.index t (0 : Fin 2) * 5000 + p.val, hrow⟩ : Fin 100000) k) := by
    show V c main_v45 (((cfg2.win 0).blk t).view.emb (ix2 p k)) = _
    refine congrArg _ (funext fun a => Fin.ext ?_)
    match a with
    | ⟨0, _⟩ => show win2_0.index t (0 : Fin 2) * 5000 + 1 * p.val = win2_2.index t (0 : Fin 2) * 5000 + p.val; omega
    | ⟨1, _⟩ => show win2_0.index t (1 : Fin 2) * 256 + 1 * k.val = k.val; omega
  have h1 : iblk2 V c 1 t (ix2 k q) = V c main_arg5 (ix2 k q) := by
    show V c main_arg5 (((cfg2.win 1).blk t).view.emb (ix2 k q)) = _
    refine congrArg _ (funext fun a => Fin.ext ?_)
    match a with
    | ⟨0, _⟩ => show win2_1.index t (0 : Fin 2) * 256 + 1 * k.val = k.val; omega
    | ⟨1, _⟩ => show win2_1.index t (1 : Fin 2) * 256 + 1 * q.val = q.val; omega
  rw [h0, h1]

/-- An index of the result array is in point t's block iff each coordinate is in the block's range. -/
theorem mem_blk (t : Fin cfg2.N) (i : S100000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v46).slice (win2_2.rect t)).set ↔ _
  rw [View.set_slice_whole, Rect.mem_set_unit]
  exact Iff.rfl

/-- Every index of the result array is in some point's block: row r is in block r / 5000. -/
theorem cover (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The array the launch leaves: the whole product of the arrays it found. -/
theorem final (c : Dev nD) :
    (dat2 V c).arrAt 2 cfg2.N = Cert.Gcn.Spec.dot (F := Ideal) (V c main_v45) (V c main_arg5) :=
  (dat2 V c).arrAt_eq_of_cover 2 (Cert.Gcn.Spec.dot (F := Ideal) (V c main_v45) (V c main_arg5)) (fun t _ => flushed_eq V c t) cover

end Cert.Gcn.Region2

end
-- ==== Proof.Region3.lean ====
/-
  Launch 3 (bias and maximum): the array it leaves is the bias row added to every row of its input array, then the
  maximum with zero.

  The grid has 20 points; point t stages rows 5000·t … 5000·t + 4999 of the input and the one bias row, and writes back the
  same rows of the result. Entry (p, q) of that block is max (input(5000·t + p, q) + bias(0, q)) 0, which is entry
  (5000·t + p, q) of the whole result; the 20 blocks tile the 100000 rows.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region3

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the result's blocks move together down the rows; every other block
    index is 0; there are 20 row blocks. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every row block is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- What point t writes back is block t of the whole result. -/
theorem flushed_eq (c : Dev nD) (t : Fin cfg3.N) :
    (dat3 V c).flushed 2 t
      = ((cfg3.win 2).blk t).view.read (Elt Ideal) (Cert.Gcn.Spec.biasRelu (F := Ideal) (V c main_v58) (V c main_v59)) := by
  show (cfg3.win 2).cut (grid3.coords t) ((dat3 V c).after 2 t) = _
  rw [after3_2]
  unfold out3_2
  rw [View.canon_unit_zero hz]
  simp only [View.ld_unit_zero (S := S5000x256) hz, View.ld_unit_zero (S := S1x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win3_2.index t (0 : Fin 2) * 5000 + p.val < 100000 := by have := p.isLt; omega
  show k3_pay1 (iblk3 V c 0 t) (iblk3 V c 1 t) (ix2 p q)
    = Cert.Gcn.Spec.biasRelu (F := Ideal) (V c main_v58) (V c main_v59) (((cfg3.win 2).blk t).view.emb (ix2 p q))
  have hemb : ((cfg3.win 2).blk t).view.emb (ix2 p q)
      = ix2 (⟨win3_2.index t (0 : Fin 2) * 5000 + p.val, hrow⟩ : Fin 100000) q := by
    funext a; apply Fin.ext
    match a with
    | ⟨0, _⟩ => show win3_2.index t (0 : Fin 2) * 5000 + 1 * p.val = win3_2.index t (0 : Fin 2) * 5000 + p.val; omega
    | ⟨1, _⟩ => show win3_2.index t (1 : Fin 2) * 256 + 1 * q.val = q.val; omega
  rw [hemb]
  refine (Cert.Gcn.Payload.br3_apply (iblk3 V c 0 t) (iblk3 V c 1 t) p q).trans ?_
  refine Eq.trans ?_ (Cert.Gcn.Spec.biasRelu_apply (V c main_v58) (V c main_v59) _ q).symm
  have h0 : iblk3 V c 0 t (ix2 p q)
      = V c main_v58 (ix2 (⟨win3_2.index t (0 : Fin 2) * 5000 + p.val, hrow⟩ : Fin 100000) q) := by
    show V c main_v58 (((cfg3.win 0).blk t).view.emb (ix2 p q)) = _
    refine congrArg _ (funext fun a => Fin.ext ?_)
    match a with
    | ⟨0, _⟩ => show win3_0.index t (0 : Fin 2) * 5000 + 1 * p.val = win3_2.index t (0 : Fin 2) * 5000 + p.val; omega
    | ⟨1, _⟩ => show win3_0.index t (1 : Fin 2) * 256 + 1 * q.val = q.val; omega
  have h1 : iblk3 V c 1 t (ix2 (0 : Fin 1) q) = V c main_v59 (ix2 (0 : Fin 1) q) := by
    show V c main_v59 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 256 + 1 * q.val = q.val; omega
  rw [h0, h1]

/-- An index of the result array is in point t's block iff each coordinate is in the block's range. -/
theorem mem_blk (t : Fin cfg3.N) (i : S100000x256.Idx) :
    i ∈ ((cfg3.win 2).blk t).view.set ↔ ∀ a : Fin 2, win3_2.index t a * S5000x256.size a ≤ (i a).val
      ∧ (i a).val < win3_2.index t a * S5000x256.size a + S5000x256.size a := by
  show i ∈ ((View.whole main_v60).slice (win3_2.rect t)).set ↔ _
  rw [View.set_slice_whole, Rect.mem_set_unit]
  exact Iff.rfl

/-- Every index of the result array is in some point's block: row r is in block r / 5000. -/
theorem cover (i : S100000x256.Idx) :
    ∃ t : Fin cfg3.N, (cfg3.win 2).flush t = true ∧ i ∈ ((cfg3.win 2).blk t).view.set := by
  have hi0 : (i 0).val < 100000 := (i 0).isLt
  have hi1 : (i 1).val < 256 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- The array the launch leaves: the bias-maximum of the arrays it found. -/
theorem final (c : Dev nD) :
    (dat3 V c).arrAt 2 cfg3.N = Cert.Gcn.Spec.biasRelu (F := Ideal) (V c main_v58) (V c main_v59) :=
  (dat3 V c).arrAt_eq_of_cover 2 (Cert.Gcn.Spec.biasRelu (F := Ideal) (V c main_v58) (V c main_v59)) (fun t _ => flushed_eq V c t) cover

end Cert.Gcn.Region3

end
-- ==== Proof.Region4.lean ====
/-
  Launch 4 (a product): the array it leaves is the whole product of its two operand arrays.

  The grid has 20 points; point t stages rows 5000·t … 5000·t + 4999 of the left operand and the whole right
  operand, and writes back rows 5000·t … 5000·t + 4999 of the result. Entry (p, q) of that block is the sum over k of
  left(5000·t + p, k) · right(k, q), which is entry (5000·t + p, q) of the whole product; the 20 blocks tile the
  100000 rows, so the array ends holding the whole product.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region4

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand's and the result's blocks move together down the rows; every other
    block index is 0; there are 20 row blocks. -/
theorem idx_facts : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 19 :=
  (by decide +kernel : ∀ t : Fin grid4.N, _)

/-- Every row block is some point's. -/
theorem idx_onto : ∀ q0 : Fin 20, ∃ t : Fin cfg4.N, win4_2.index t = ![q0.val, 0] :=
  (by decide +kernel : ∀ q0 : Fin 20, ∃ t : Fin grid4.N, win4_2.index t = ![q0.val, 0])

/-- What point t writes back is block t of the whole product. -/
theorem flushed_eq (c : Dev nD) (t : Fin cfg4.N) :
    (dat4 V c).flushed 2 t
      = ((cfg4.win 2).blk t).view.read (Elt Ideal) (Cert.Gcn.Spec.dot (F := Ideal) (V c main_v60) (V c main_arg7)) := by
  show (cfg4.win 2).cut (grid4.coords t) ((dat4 V c).after 2 t) = _
  rw [after4_2]
  unfold out4_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win4_2.index t (0 : Fin 2) * 5000 + p.val < 100000 := by have := p.isLt; omega
  show k4_pay1 (iblk4 V c 0 t) (iblk4 V c 1 t) (ix2 p q)
    = Cert.Gcn.Spec.dot (F := Ideal) (V c main_v60) (V c main_arg7) (((cfg4.win 2).blk t).view.emb (ix2 p q))
  have hemb : ((cfg4.win 2).blk t).view.emb (ix2 p q)
      = ix2 (⟨win4_2.index t (0 : Fin 2) * 5000 + p.val, hrow⟩ : Fin 100000) q := by
    funext a; apply Fin.ext
    match a with
    | ⟨0, _⟩ => show win4_2.index t (0 : Fin 2) * 5000 + 1 * p.val = win4_2.index t (0 : Fin 2) * 5000 + p.val; omega
    | ⟨1, _⟩ => show win4_2.index t (1 : Fin 2) * 256 + 1 * q.val = q.val; omega
  rw [hemb]
  refine (Cert.Gcn.Payload.mm4_apply (iblk4 V c 0 t) (iblk4 V c 1 t) p q).trans ?_
  refine Eq.trans ?_ (Cert.Gcn.Spec.dot_apply (V c main_v60) (V c main_arg7) _ q).symm
  refine Finset.sum_congr rfl fun k _ => ?_
  have h0 : iblk4 V c 0 t (ix2 p k)
      = V c main_v60 (ix2 (⟨win4_2.index t (0 : Fin 2) * 5000 + p.val, hrow⟩ : Fin 100000) k) := by
    show V c main_v60 (((cfg4.win 0).blk t).view.emb (ix2 p k)) = _
    refine congrArg _ (funext fun a => Fin.ext ?_)
    match a with
    | ⟨0, _⟩ => show win4_0.index t (0 : Fin 2) * 5000 + 1 * p.val = win4_2.index t (0 : Fin 2) * 5000 + p.val; omega
    | ⟨1, _⟩ => show win4_0.index t (1 : Fin 2) * 256 + 1 * k.val = k.val; omega
  have h1 : iblk4 V c 1 t (ix2 k q) = V c main_arg7 (ix2 k q) := by
    show V c main_arg7 (((cfg4.win 1).blk t).view.emb (ix2 k q)) = _
    refine congrArg _ (funext fun a => Fin.ext ?_)
    match a with
    | ⟨0, _⟩ => show win4_1.index t (0 : Fin 2) * 256 + 1 * k.val = k.val; omega
    | ⟨1, _⟩ => show win4_1.index t (1 : Fin 2) * 256 + 1 * q.val = q.val; omega
  rw [h0, h1]

/-- An index of the result array is in point t's block iff each coordinate is in the block's range. -/
theorem mem_blk (t : Fin cfg4.N) (i : S100000x256.Idx) :
    i ∈ ((cfg4.win 2).blk t).view.set ↔ ∀ a : Fin 2, win4_2.index t a * S5000x256.size a ≤ (i a).val
      ∧ (i a).val < win4_2.index t a * S5000x256.size a + S5000x256.size a := by
  show i ∈ ((View.whole main_v61).slice (win4_2.rect t)).set ↔ _
  rw [View.set_slice_whole, Rect.mem_set_unit]
  exact Iff.rfl

/-- Every index of the result array is in some point's block: row r is in block r / 5000. -/
theorem cover (i : S100000x256.Idx) :
    ∃ t : Fin cfg4.N, (cfg4.win 2).flush t = true ∧ i ∈ ((cfg4.win 2).blk t).view.set := by
  have hi0 : (i 0).val < 100000 := (i 0).isLt
  have hi1 : (i 1).val < 256 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 256 ≤ (i 1).val ∧ (i 1).val < win4_2.index t (1 : Fin 2) * 256 + 256; omega

/-- The array the launch leaves: the whole product of the arrays it found. -/
theorem final (c : Dev nD) :
    (dat4 V c).arrAt 2 cfg4.N = Cert.Gcn.Spec.dot (F := Ideal) (V c main_v60) (V c main_arg7) :=
  (dat4 V c).arrAt_eq_of_cover 2 (Cert.Gcn.Spec.dot (F := Ideal) (V c main_v60) (V c main_arg7)) (fun t _ => flushed_eq V c t) cover

end Cert.Gcn.Region4

end
-- ==== Proof.Region5.lean ====
/-
  Launch 5 (bias and maximum): the array it leaves is the bias row added to every row of its input array, then the
  maximum with zero.

  The grid has 20 points; point t stages rows 5000·t … 5000·t + 4999 of the input and the one bias row, and writes back the
  same rows of the result. Entry (p, q) of that block is max (input(5000·t + p, q) + bias(0, q)) 0, which is entry
  (5000·t + p, q) of the whole result; the 20 blocks tile the 100000 rows.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region5

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the result's blocks move together down the rows; every other block
    index is 0; there are 20 row blocks. -/
theorem idx_facts : ∀ t : Fin cfg5.N,
    win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 19 :=
  (by decide +kernel : ∀ t : Fin grid5.N, _)

/-- Every row block is some point's. -/
theorem idx_onto : ∀ q0 : Fin 20, ∃ t : Fin cfg5.N, win5_2.index t = ![q0.val, 0] :=
  (by decide +kernel : ∀ q0 : Fin 20, ∃ t : Fin grid5.N, win5_2.index t = ![q0.val, 0])

/-- What point t writes back is block t of the whole result. -/
theorem flushed_eq (c : Dev nD) (t : Fin cfg5.N) :
    (dat5 V c).flushed 2 t
      = ((cfg5.win 2).blk t).view.read (Elt Ideal) (Cert.Gcn.Spec.biasRelu (F := Ideal) (V c main_v73) (V c main_v74)) := by
  show (cfg5.win 2).cut (grid5.coords t) ((dat5 V c).after 2 t) = _
  rw [after5_2]
  unfold out5_2
  rw [View.canon_unit_zero hz]
  simp only [View.ld_unit_zero (S := S5000x256) hz, View.ld_unit_zero (S := S1x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win5_2.index t (0 : Fin 2) * 5000 + p.val < 100000 := by have := p.isLt; omega
  show k5_pay1 (iblk5 V c 0 t) (iblk5 V c 1 t) (ix2 p q)
    = Cert.Gcn.Spec.biasRelu (F := Ideal) (V c main_v73) (V c main_v74) (((cfg5.win 2).blk t).view.emb (ix2 p q))
  have hemb : ((cfg5.win 2).blk t).view.emb (ix2 p q)
      = ix2 (⟨win5_2.index t (0 : Fin 2) * 5000 + p.val, hrow⟩ : Fin 100000) q := by
    funext a; apply Fin.ext
    match a with
    | ⟨0, _⟩ => show win5_2.index t (0 : Fin 2) * 5000 + 1 * p.val = win5_2.index t (0 : Fin 2) * 5000 + p.val; omega
    | ⟨1, _⟩ => show win5_2.index t (1 : Fin 2) * 256 + 1 * q.val = q.val; omega
  rw [hemb]
  refine (Cert.Gcn.Payload.br5_apply (iblk5 V c 0 t) (iblk5 V c 1 t) p q).trans ?_
  refine Eq.trans ?_ (Cert.Gcn.Spec.biasRelu_apply (V c main_v73) (V c main_v74) _ q).symm
  have h0 : iblk5 V c 0 t (ix2 p q)
      = V c main_v73 (ix2 (⟨win5_2.index t (0 : Fin 2) * 5000 + p.val, hrow⟩ : Fin 100000) q) := by
    show V c main_v73 (((cfg5.win 0).blk t).view.emb (ix2 p q)) = _
    refine congrArg _ (funext fun a => Fin.ext ?_)
    match a with
    | ⟨0, _⟩ => show win5_0.index t (0 : Fin 2) * 5000 + 1 * p.val = win5_2.index t (0 : Fin 2) * 5000 + p.val; omega
    | ⟨1, _⟩ => show win5_0.index t (1 : Fin 2) * 256 + 1 * q.val = q.val; omega
  have h1 : iblk5 V c 1 t (ix2 (0 : Fin 1) q) = V c main_v74 (ix2 (0 : Fin 1) q) := by
    show V c main_v74 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 256 + 1 * q.val = q.val; omega
  rw [h0, h1]

/-- An index of the result array is in point t's block iff each coordinate is in the block's range. -/
theorem mem_blk (t : Fin cfg5.N) (i : S100000x256.Idx) :
    i ∈ ((cfg5.win 2).blk t).view.set ↔ ∀ a : Fin 2, win5_2.index t a * S5000x256.size a ≤ (i a).val
      ∧ (i a).val < win5_2.index t a * S5000x256.size a + S5000x256.size a := by
  show i ∈ ((View.whole main_v75).slice (win5_2.rect t)).set ↔ _
  rw [View.set_slice_whole, Rect.mem_set_unit]
  exact Iff.rfl

/-- Every index of the result array is in some point's block: row r is in block r / 5000. -/
theorem cover (i : S100000x256.Idx) :
    ∃ t : Fin cfg5.N, (cfg5.win 2).flush t = true ∧ i ∈ ((cfg5.win 2).blk t).view.set := by
  have hi0 : (i 0).val < 100000 := (i 0).isLt
  have hi1 : (i 1).val < 256 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 256 ≤ (i 1).val ∧ (i 1).val < win5_2.index t (1 : Fin 2) * 256 + 256; omega

/-- The array the launch leaves: the bias-maximum of the arrays it found. -/
theorem final (c : Dev nD) :
    (dat5 V c).arrAt 2 cfg5.N = Cert.Gcn.Spec.biasRelu (F := Ideal) (V c main_v73) (V c main_v74) :=
  (dat5 V c).arrAt_eq_of_cover 2 (Cert.Gcn.Spec.biasRelu (F := Ideal) (V c main_v73) (V c main_v74)) (fun t _ => flushed_eq V c t) cover

end Cert.Gcn.Region5

end
-- ==== Proof.Region6.lean ====
/-
  Launch 6 (a product): the array it leaves is the whole product of its two operand arrays.

  The grid has 20 points; point t stages rows 5000·t … 5000·t + 4999 of the left operand and the whole right
  operand, and writes back rows 5000·t … 5000·t + 4999 of the result. Entry (p, q) of that block is the sum over k of
  left(5000·t + p, k) · right(k, q), which is entry (5000·t + p, q) of the whole product; the 20 blocks tile the
  100000 rows, so the array ends holding the whole product.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region6

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand's and the result's blocks move together down the rows; every other
    block index is 0; there are 20 row blocks. -/
theorem idx_facts : ∀ t : Fin cfg6.N,
    win6_0.index t (0 : Fin 2) = win6_2.index t (0 : Fin 2) ∧ win6_0.index t (1 : Fin 2) = 0
    ∧ win6_1.index t (0 : Fin 2) = 0 ∧ win6_1.index t (1 : Fin 2) = 0
    ∧ win6_2.index t (1 : Fin 2) = 0 ∧ win6_2.index t (0 : Fin 2) ≤ 19 :=
  (by decide +kernel : ∀ t : Fin grid6.N, _)

/-- Every row block is some point's. -/
theorem idx_onto : ∀ q0 : Fin 20, ∃ t : Fin cfg6.N, win6_2.index t = ![q0.val, 0] :=
  (by decide +kernel : ∀ q0 : Fin 20, ∃ t : Fin grid6.N, win6_2.index t = ![q0.val, 0])

/-- What point t writes back is block t of the whole product. -/
theorem flushed_eq (c : Dev nD) (t : Fin cfg6.N) :
    (dat6 V c).flushed 2 t
      = ((cfg6.win 2).blk t).view.read (Elt Ideal) (Cert.Gcn.Spec.dot (F := Ideal) (V c main_v75) (V c main_arg9)) := by
  show (cfg6.win 2).cut (grid6.coords t) ((dat6 V c).after 2 t) = _
  rw [after6_2]
  unfold out6_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win6_2.index t (0 : Fin 2) * 5000 + p.val < 100000 := by have := p.isLt; omega
  show k6_pay1 (iblk6 V c 0 t) (iblk6 V c 1 t) (ix2 p q)
    = Cert.Gcn.Spec.dot (F := Ideal) (V c main_v75) (V c main_arg9) (((cfg6.win 2).blk t).view.emb (ix2 p q))
  have hemb : ((cfg6.win 2).blk t).view.emb (ix2 p q)
      = ix2 (⟨win6_2.index t (0 : Fin 2) * 5000 + p.val, hrow⟩ : Fin 100000) q := by
    funext a; apply Fin.ext
    match a with
    | ⟨0, _⟩ => show win6_2.index t (0 : Fin 2) * 5000 + 1 * p.val = win6_2.index t (0 : Fin 2) * 5000 + p.val; omega
    | ⟨1, _⟩ => show win6_2.index t (1 : Fin 2) * 256 + 1 * q.val = q.val; omega
  rw [hemb]
  refine (Cert.Gcn.Payload.mm6_apply (iblk6 V c 0 t) (iblk6 V c 1 t) p q).trans ?_
  refine Eq.trans ?_ (Cert.Gcn.Spec.dot_apply (V c main_v75) (V c main_arg9) _ q).symm
  refine Finset.sum_congr rfl fun k _ => ?_
  have h0 : iblk6 V c 0 t (ix2 p k)
      = V c main_v75 (ix2 (⟨win6_2.index t (0 : Fin 2) * 5000 + p.val, hrow⟩ : Fin 100000) k) := by
    show V c main_v75 (((cfg6.win 0).blk t).view.emb (ix2 p k)) = _
    refine congrArg _ (funext fun a => Fin.ext ?_)
    match a with
    | ⟨0, _⟩ => show win6_0.index t (0 : Fin 2) * 5000 + 1 * p.val = win6_2.index t (0 : Fin 2) * 5000 + p.val; omega
    | ⟨1, _⟩ => show win6_0.index t (1 : Fin 2) * 256 + 1 * k.val = k.val; omega
  have h1 : iblk6 V c 1 t (ix2 k q) = V c main_arg9 (ix2 k q) := by
    show V c main_arg9 (((cfg6.win 1).blk t).view.emb (ix2 k q)) = _
    refine congrArg _ (funext fun a => Fin.ext ?_)
    match a with
    | ⟨0, _⟩ => show win6_1.index t (0 : Fin 2) * 256 + 1 * k.val = k.val; omega
    | ⟨1, _⟩ => show win6_1.index t (1 : Fin 2) * 256 + 1 * q.val = q.val; omega
  rw [h0, h1]

/-- An index of the result array is in point t's block iff each coordinate is in the block's range. -/
theorem mem_blk (t : Fin cfg6.N) (i : S100000x256.Idx) :
    i ∈ ((cfg6.win 2).blk t).view.set ↔ ∀ a : Fin 2, win6_2.index t a * S5000x256.size a ≤ (i a).val
      ∧ (i a).val < win6_2.index t a * S5000x256.size a + S5000x256.size a := by
  show i ∈ ((View.whole main_v76).slice (win6_2.rect t)).set ↔ _
  rw [View.set_slice_whole, Rect.mem_set_unit]
  exact Iff.rfl

/-- Every index of the result array is in some point's block: row r is in block r / 5000. -/
theorem cover (i : S100000x256.Idx) :
    ∃ t : Fin cfg6.N, (cfg6.win 2).flush t = true ∧ i ∈ ((cfg6.win 2).blk t).view.set := by
  have hi0 : (i 0).val < 100000 := (i 0).isLt
  have hi1 : (i 1).val < 256 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 256 ≤ (i 1).val ∧ (i 1).val < win6_2.index t (1 : Fin 2) * 256 + 256; omega

/-- The array the launch leaves: the whole product of the arrays it found. -/
theorem final (c : Dev nD) :
    (dat6 V c).arrAt 2 cfg6.N = Cert.Gcn.Spec.dot (F := Ideal) (V c main_v75) (V c main_arg9) :=
  (dat6 V c).arrAt_eq_of_cover 2 (Cert.Gcn.Spec.dot (F := Ideal) (V c main_v75) (V c main_arg9)) (fun t _ => flushed_eq V c t) cover

end Cert.Gcn.Region6

end
-- ==== Proof.Region7.lean ====
/-
  Launch 7 (bias and maximum): the array it leaves is the bias row added to every row of its input array, then the
  maximum with zero.

  The grid has 20 points; point t stages rows 5000·t … 5000·t + 4999 of the input and the one bias row, and writes back the
  same rows of the result. Entry (p, q) of that block is max (input(5000·t + p, q) + bias(0, q)) 0, which is entry
  (5000·t + p, q) of the whole result; the 20 blocks tile the 100000 rows.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region7

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the result's blocks move together down the rows; every other block
    index is 0; there are 20 row blocks. -/
theorem idx_facts : ∀ t : Fin cfg7.N,
    win7_0.index t (0 : Fin 2) = win7_2.index t (0 : Fin 2) ∧ win7_0.index t (1 : Fin 2) = 0
    ∧ win7_1.index t (0 : Fin 2) = 0 ∧ win7_1.index t (1 : Fin 2) = 0
    ∧ win7_2.index t (1 : Fin 2) = 0 ∧ win7_2.index t (0 : Fin 2) ≤ 19 :=
  (by decide +kernel : ∀ t : Fin grid7.N, _)

/-- Every row block is some point's. -/
theorem idx_onto : ∀ q0 : Fin 20, ∃ t : Fin cfg7.N, win7_2.index t = ![q0.val, 0] :=
  (by decide +kernel : ∀ q0 : Fin 20, ∃ t : Fin grid7.N, win7_2.index t = ![q0.val, 0])

/-- What point t writes back is block t of the whole result. -/
theorem flushed_eq (c : Dev nD) (t : Fin cfg7.N) :
    (dat7 V c).flushed 2 t
      = ((cfg7.win 2).blk t).view.read (Elt Ideal) (Cert.Gcn.Spec.biasRelu (F := Ideal) (V c main_v88) (V c main_v89)) := by
  show (cfg7.win 2).cut (grid7.coords t) ((dat7 V c).after 2 t) = _
  rw [after7_2]
  unfold out7_2
  rw [View.canon_unit_zero hz]
  simp only [View.ld_unit_zero (S := S5000x256) hz, View.ld_unit_zero (S := S1x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win7_2.index t (0 : Fin 2) * 5000 + p.val < 100000 := by have := p.isLt; omega
  show k7_pay1 (iblk7 V c 0 t) (iblk7 V c 1 t) (ix2 p q)
    = Cert.Gcn.Spec.biasRelu (F := Ideal) (V c main_v88) (V c main_v89) (((cfg7.win 2).blk t).view.emb (ix2 p q))
  have hemb : ((cfg7.win 2).blk t).view.emb (ix2 p q)
      = ix2 (⟨win7_2.index t (0 : Fin 2) * 5000 + p.val, hrow⟩ : Fin 100000) q := by
    funext a; apply Fin.ext
    match a with
    | ⟨0, _⟩ => show win7_2.index t (0 : Fin 2) * 5000 + 1 * p.val = win7_2.index t (0 : Fin 2) * 5000 + p.val; omega
    | ⟨1, _⟩ => show win7_2.index t (1 : Fin 2) * 256 + 1 * q.val = q.val; omega
  rw [hemb]
  refine (Cert.Gcn.Payload.br7_apply (iblk7 V c 0 t) (iblk7 V c 1 t) p q).trans ?_
  refine Eq.trans ?_ (Cert.Gcn.Spec.biasRelu_apply (V c main_v88) (V c main_v89) _ q).symm
  have h0 : iblk7 V c 0 t (ix2 p q)
      = V c main_v88 (ix2 (⟨win7_2.index t (0 : Fin 2) * 5000 + p.val, hrow⟩ : Fin 100000) q) := by
    show V c main_v88 (((cfg7.win 0).blk t).view.emb (ix2 p q)) = _
    refine congrArg _ (funext fun a => Fin.ext ?_)
    match a with
    | ⟨0, _⟩ => show win7_0.index t (0 : Fin 2) * 5000 + 1 * p.val = win7_2.index t (0 : Fin 2) * 5000 + p.val; omega
    | ⟨1, _⟩ => show win7_0.index t (1 : Fin 2) * 256 + 1 * q.val = q.val; omega
  have h1 : iblk7 V c 1 t (ix2 (0 : Fin 1) q) = V c main_v89 (ix2 (0 : Fin 1) q) := by
    show V c main_v89 (((cfg7.win 1).blk t).view.emb (ix2 (0 : Fin 1) q)) = _
    refine congrArg _ (funext fun a => Fin.ext ?_)
    match a with
    | ⟨0, _⟩ => show win7_1.index t (0 : Fin 2) * 1 + 1 * 0 = 0; omega
    | ⟨1, _⟩ => show win7_1.index t (1 : Fin 2) * 256 + 1 * q.val = q.val; omega
  rw [h0, h1]

/-- An index of the result array is in point t's block iff each coordinate is in the block's range. -/
theorem mem_blk (t : Fin cfg7.N) (i : S100000x256.Idx) :
    i ∈ ((cfg7.win 2).blk t).view.set ↔ ∀ a : Fin 2, win7_2.index t a * S5000x256.size a ≤ (i a).val
      ∧ (i a).val < win7_2.index t a * S5000x256.size a + S5000x256.size a := by
  show i ∈ ((View.whole main_v90).slice (win7_2.rect t)).set ↔ _
  rw [View.set_slice_whole, Rect.mem_set_unit]
  exact Iff.rfl

/-- Every index of the result array is in some point's block: row r is in block r / 5000. -/
theorem cover (i : S100000x256.Idx) :
    ∃ t : Fin cfg7.N, (cfg7.win 2).flush t = true ∧ i ∈ ((cfg7.win 2).blk t).view.set := by
  have hi0 : (i 0).val < 100000 := (i 0).isLt
  have hi1 : (i 1).val < 256 := (i 1).isLt
  obtain ⟨t, ht⟩ := idx_onto ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 256 ≤ (i 1).val ∧ (i 1).val < win7_2.index t (1 : Fin 2) * 256 + 256; omega

/-- The array the launch leaves: the bias-maximum of the arrays it found. -/
theorem final (c : Dev nD) :
    (dat7 V c).arrAt 2 cfg7.N = Cert.Gcn.Spec.biasRelu (F := Ideal) (V c main_v88) (V c main_v89) :=
  (dat7 V c).arrAt_eq_of_cover 2 (Cert.Gcn.Spec.biasRelu (F := Ideal) (V c main_v88) (V c main_v89)) (fun t _ => flushed_eq V c t) cover

end Cert.Gcn.Region7

end
-- ==== Proof.Region8.lean ====
/-
  Launch 8 (a product): the array it leaves is the whole product of its two operand arrays.

  The grid has 20 points; point t stages rows 5000·t … 5000·t + 4999 of the left operand and the whole right
  operand, and writes back rows 5000·t … 5000·t + 4999 of the result. Entry (p, q) of that block is the sum over k of
  left(5000·t + p, k) · right(k, q), which is entry (5000·t + p, q) of the whole product; the 20 blocks tile the
  100000 rows, so the array ends holding the whole product.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region8

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand's and the result's blocks move together down the rows; every other
    block index is 0; there are 20 row blocks. -/
theorem idx_facts : ∀ t : Fin cfg8.N,
    win8_0.index t (0 : Fin 2) = win8_2.index t (0 : Fin 2) ∧ win8_0.index t (1 : Fin 2) = 0
    ∧ win8_1.index t (0 : Fin 2) = 0 ∧ win8_1.index t (1 : Fin 2) = 0
    ∧ win8_2.index t (1 : Fin 2) = 0 ∧ win8_2.index t (0 : Fin 2) ≤ 19 :=
  (by decide +kernel : ∀ t : Fin grid8.N, _)

/-- Every row block is some point's. -/
theorem idx_onto : ∀ q0 : Fin 20, ∃ t : Fin cfg8.N, win8_2.index t = ![q0.val, 0] :=
  (by decide +kernel : ∀ q0 : Fin 20, ∃ t : Fin grid8.N, win8_2.index t = ![q0.val, 0])

/-- What point t writes back is block t of the whole product. -/
theorem flushed_eq (c : Dev nD) (t : Fin cfg8.N) :
    (dat8 V c).flushed 2 t
      = ((cfg8.win 2).blk t).view.read (Elt Ideal) (Cert.Gcn.Spec.dot (F := Ideal) (V c main_v90) (V c main_arg11)) := by
  show (cfg8.win 2).cut (grid8.coords t) ((dat8 V c).after 2 t) = _
  rw [after8_2]
  unfold out8_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win8_2.index t (0 : Fin 2) * 5000 + p.val < 100000 := by have := p.isLt; omega
  show k8_pay1 (iblk8 V c 0 t) (iblk8 V c 1 t) (ix2 p q)
    = Cert.Gcn.Spec.dot (F := Ideal) (V c main_v90) (V c main_arg11) (((cfg8.win 2).blk t).view.emb (ix2 p q))
  have hemb : ((cfg8.win 2).blk t).view.emb (ix2 p q)
      = ix2 (⟨win8_2.index t (0 : Fin 2) * 5000 + p.val, hrow⟩ : Fin 100000) q := by
    funext a; apply Fin.ext
    match a with
    | ⟨0, _⟩ => show win8_2.index t (0 : Fin 2) * 5000 + 1 * p.val = win8_2.index t (0 : Fin 2) * 5000 + p.val; omega
    | ⟨1, _⟩ => show win8_2.index t (1 : Fin 2) * 256 + 1 * q.val = q.val; omega
  rw [hemb]
  refine (Cert.Gcn.Payload.mm8_apply (iblk8 V c 0 t) (iblk8 V c 1 t) p q).trans ?_
  refine Eq.trans ?_ (Cert.Gcn.Spec.dot_apply (V c main_v90) (V c main_arg11) _ q).symm
  refine Finset.sum_congr rfl fun k _ => ?_
  have h0 : iblk8 V c 0 t (ix2 p k)
      = V c main_v90 (ix2 (⟨win8_2.index t (0 : Fin 2) * 5000 + p.val, hrow⟩ : Fin 100000) k) := by
    show V c main_v90 (((cfg8.win 0).blk t).view.emb (ix2 p k)) = _
    refine congrArg _ (funext fun a => Fin.ext ?_)
    match a with
    | ⟨0, _⟩ => show win8_0.index t (0 : Fin 2) * 5000 + 1 * p.val = win8_2.index t (0 : Fin 2) * 5000 + p.val; omega
    | ⟨1, _⟩ => show win8_0.index t (1 : Fin 2) * 256 + 1 * k.val = k.val; omega
  have h1 : iblk8 V c 1 t (ix2 k q) = V c main_arg11 (ix2 k q) := by
    show V c main_arg11 (((cfg8.win 1).blk t).view.emb (ix2 k q)) = _
    refine congrArg _ (funext fun a => Fin.ext ?_)
    match a with
    | ⟨0, _⟩ => show win8_1.index t (0 : Fin 2) * 256 + 1 * k.val = k.val; omega
    | ⟨1, _⟩ => show win8_1.index t (1 : Fin 2) * 256 + 1 * q.val = q.val; omega
  rw [h0, h1]

/-- An index of the result array is in point t's block iff each coordinate is in the block's range. -/
theorem mem_blk (t : Fin cfg8.N) (i : S100000x256.Idx) :
    i ∈ ((cfg8.win 2).blk t).view.set ↔ ∀ a : Fin 2, win8_2.index t a * S5000x256.size a ≤ (i a).val
      ∧ (i a).val < win8_2.index t a * S5000x256.size a + S5000x256.size a := by
  show i ∈ ((View.whole main_v91).slice (win8_2.rect t)).set ↔ _
  rw [View.set_slice_whole, Rect.mem_set_unit]
  exact Iff.rfl

/-- Every index of the result array is in some point's block: row r is in block r / 5000. -/
theorem cover (i : S100000x256.Idx) :
    ∃ t : Fin cfg8.N, (cfg8.win 2).flush t = true ∧ i ∈ ((cfg8.win 2).blk t).view.set := by
  have hi0 : (i 0).val < 100000 := (i 0).isLt
  have hi1 : (i 1).val < 256 := (i 1).isLt
  obtain ⟨t, ht⟩ := idx_onto ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_blk]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 256 ≤ (i 1).val ∧ (i 1).val < win8_2.index t (1 : Fin 2) * 256 + 256; omega

/-- The array the launch leaves: the whole product of the arrays it found. -/
theorem final (c : Dev nD) :
    (dat8 V c).arrAt 2 cfg8.N = Cert.Gcn.Spec.dot (F := Ideal) (V c main_v90) (V c main_arg11) :=
  (dat8 V c).arrAt_eq_of_cover 2 (Cert.Gcn.Spec.dot (F := Ideal) (V c main_v90) (V c main_arg11)) (fun t _ => flushed_eq V c t) cover

end Cert.Gcn.Region8

end
-- ==== Proof.Region9.lean ====
/-
  Launch 9 (bias and maximum): the array it leaves is the bias row added to every row of its input array, then the
  maximum with zero.

  The grid has 20 points; point t stages rows 5000·t … 5000·t + 4999 of the input and the one bias row, and writes back the
  same rows of the result. Entry (p, q) of that block is max (input(5000·t + p, q) + bias(0, q)) 0, which is entry
  (5000·t + p, q) of the whole result; the 20 blocks tile the 100000 rows.
-/
import proofs.«109091_j76974403879378_1_alg».proof.Proof.Gen.KernelIdeal.Frame
import proofs.«109091_j76974403879378_1_alg».proof.Proof.Payloads
import proofs.«109091_j76974403879378_1_alg».proof.Proof.Spec
import Idealize.ShloMosaic.Lib.Pipeline.Value

set_option maxRecDepth 16384

noncomputable section

namespace Cert.Gcn.Region9

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the result's blocks move together down the rows; every other block
    index is 0; there are 20 row blocks. -/
theorem idx_facts : ∀ t : Fin cfg9.N,
    win9_0.index t (0 : Fin 2) = win9_2.index t (0 : Fin 2) ∧ win9_0.index t (1 : Fin 2) = 0
    ∧ win9_1.index t (0 : Fin 2) = 0 ∧ win9_1.index t (1 : Fin 2) = 0
    ∧ win9_2.index t (1 : Fin 2) = 0 ∧ win9_2.index t (0 : Fin 2) ≤ 19 :=
  (by decide +kernel : ∀ t : Fin grid9.N, _)

/-- Every row block is some point's. -/
theorem idx_onto : ∀ q0 : Fin 20, ∃ t : Fin cfg9.N, win9_2.index t = ![q0.val, 0] :=
  (by decide +kernel : ∀ q0 : Fin 20, ∃ t : Fin grid9.N, win9_2.index t = ![q0.val, 0])

/-- What point t writes back is block t of the whole result. -/
theorem flushed_eq (c : Dev nD) (t : Fin cfg9.N) :
    (dat9 V c).flushed 2 t
      = ((cfg9.win 2).blk t).view.read (Elt Ideal) (Cert.Gcn.Spec.biasRelu (F := Ideal) (V c main_v103) (V c main_v104)) := by
  show (cfg9.win 2).cut (grid9.coords t) ((dat9 V c).after 2 t) = _
  rw [after9_2]
  unfold out9_2
  rw [View.canon_unit_zero hz]
  simp only [View.ld_unit_zero (S := S5000x256) hz, View.ld_unit_zero (S := S1x256) hz]
  obtain ⟨e0, e1, e2, e3, e4, e5⟩ := idx_facts t
  funext j
  obtain ⟨p, q, rfl⟩ : ∃ (p : Fin 5000) (q : Fin 256), j = ix2 p q :=
    ⟨⟨(j 0).val, (j 0).isLt⟩, ⟨(j 1).val, (j 1).isLt⟩, funext fun a => Fin.ext (by match a with | ⟨0, _⟩ => rfl | ⟨1, _⟩ => rfl)⟩
  have hrow : win9_2.index t (0 : Fin 2) * 5000 + p.val < 100000 := by have := p.isLt; omega
  show k9_pay1 (iblk9 V c 0 t) (iblk9 V c 1 t) (ix2 p q)
    = Cert.Gcn.Spec.biasRelu (F := Ideal) (V c main_v103) (V c main_v104) (((cfg9.win 2).blk t).view.emb (ix2 p q))
  have hemb : ((cfg9.win 2).blk t).view.emb (ix2 p q)
      = ix2 (⟨win9_2.index t (0 : Fin 2) * 5000 + p.val, hrow⟩ : Fin 100000) q := by
    funext a; apply Fin.ext
    match a with
    | ⟨0, _⟩ => show win9_2.index t (0 : Fin 2) * 5000 + 1 * p.val = win9_2.index t (0 : Fin 2) * 5000 + p.val; omega
    | ⟨1, _⟩ => show win9_2.index t (1 : Fin 2) * 256 + 1 * q.val = q.val; omega
  rw [hemb]
  refine (Cert.Gcn.Payload.br9_apply (iblk9 V c 0 t) (iblk9 V c 1 t) p q).trans ?_
  refine Eq.trans ?_ (Cert.Gcn.Spec.biasRelu_apply (V c main_v103) (V c main_v104) _ q).symm
  have h0 : iblk9 V c 0 t (ix2 p q)
      = V c main_v103 (ix2 (⟨win9_2.index t (0 : Fin 2) * 5000 + p.val, hrow⟩ : Fin 100000) q) := by
    show V c main_v103 (((cfg9.win 0).blk t).view.emb (ix2 p q)) = _
    refine congrArg _ (funext fun a => Fin.ext ?_)
    match a with
    | ⟨0, _⟩ => show win9_0.index t (0 : Fin 2) * 5000 + 1 * p.val = win9_2.index t (0 : Fin 2) * 5000 + p.val; omega
    | ⟨1, _⟩ => show win9_0.index t (1 : Fin 2) * 256 + 1 * q.val = q.val; omega
  have h1 : iblk9 V c 1 t (ix2 (0 : Fin 1) q) = V c main_v104 (ix2 (0 : Fin 1) q) := by
    show V c main_v104 (((cfg9.win 1).blk t).view.emb (ix2 (0 : Fin 1) q)) = _
    refine congrArg _ (funext fun a => Fin.ext ?_)
    match a with
    | ⟨0, _⟩ => show win9_1.index t (0 : Fin 2) * 1 + 1 * 0 = 0; omega
    | ⟨1, _⟩ => show win9_1.index t (1 : Fin 2) * 256 + 1 * q.val = q.val; omega
  rw [h0, h1]

/-- An index of the result array is in point t's block iff each coordinate is in the block's range. -/
theorem mem_blk (t : Fin cfg9.N) (i : S100000x256.Idx) :
    i ∈ ((cfg9.win 2).blk t).view.set ↔ ∀ a : Fin 2, win9_2.index t a * S5000x256.size a ≤ (i a).val
      ∧ (i a).val < win9_2.index t a * S5000x256.size a + S5000x256.size a := by
  show i ∈ ((View.whole main_v105).slice (win9_2.rect t)).set ↔ _
  rw [View.set_slice_whole, Rect.mem_set_unit]
  exact Iff.rfl

/-- Every index of the result array is in some point's block: row r is in block r / 5000. -/
theorem cover (i : S100000x256.Idx) :
    ∃ t : Fin cfg9.N, (cfg9.win 2).flush t = true ∧ i ∈ ((cfg9.win 2).blk t).view.set := by
  have hi0 : (i 0).val < 100000 := (i 0).isLt
  have hi1 : (i 1).val < 256 := (i 1).isLt
  obtain ⟨t, ht⟩ := idx_onto ⟨(i 0).val / 5000, by omega⟩
  have q0 : win9_2.index t (0 : Fin 2) = (i 0).val / 5000 := congrFun ht 0
  have q1 : win9_2.index t (1 : Fin 2) = 0 := congrFun ht 1
  refine ⟨t, flush9_2 t, ?_⟩
  rw [mem_blk]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 256 ≤ (i 1).val ∧ (i 1).val < win9_2.index t (1 : Fin 2) * 256 + 256; omega

/-- The array the launch leaves: the bias-maximum of the arrays it found. -/
theorem final (c : Dev nD) :
    (dat9 V c).arrAt 2 cfg9.N = Cert.Gcn.Spec.biasRelu (F := Ideal) (V c main_v103) (V c main_v104) :=
  (dat9 V c).arrAt_eq_of_cover 2 (Cert.Gcn.Spec.biasRelu (F := Ideal) (V c main_v103) (V c main_v104)) (fun t _ => flushed_eq V c t) cover

end Cert.Gcn.Region9

end
-- ==== Proof.Layers.lean ====
/-
  The values the idealized kernel program's buffers hold, boundary by boundary, as the network's layers.

  Each of the five layers is four steps. A product launch leaves the product of the layer's input and weight matrix; a
  host stretch gathers, scales and adds it along the edges and lays the bias out as a row; a bias launch adds the row
  and takes the maximum with zero. Every step reads buffers that the earlier boundaries' values name, so the layer's
  output is the network's layer of the previous layer's output. The last host stretch applies the read-out.
-/
import proofs.«109091_j76974403879378_1_alg».proof.Proof.Prelude
import proofs.«109091_j76974403879378_1_alg».proof.Proof.Carry
import proofs.«109091_j76974403879378_1_alg».proof.Proof.LibRow
import proofs.«109091_j76974403879378_1_alg».proof.Proof.Region0
import proofs.«109091_j76974403879378_1_alg».proof.Proof.Region1
import proofs.«109091_j76974403879378_1_alg».proof.Proof.Region2
import proofs.«109091_j76974403879378_1_alg».proof.Proof.Region3
import proofs.«109091_j76974403879378_1_alg».proof.Proof.Region4
import proofs.«109091_j76974403879378_1_alg».proof.Proof.Region5
import proofs.«109091_j76974403879378_1_alg».proof.Proof.Region6
import proofs.«109091_j76974403879378_1_alg».proof.Proof.Region7
import proofs.«109091_j76974403879378_1_alg».proof.Proof.Region8
import proofs.«109091_j76974403879378_1_alg».proof.Proof.Region9

set_option maxRecDepth 16384

noncomputable section

namespace Cert.Gcn.Chain

open Cert.KernelIdeal Cert.KernelIdeal.Gen
open Idealize.ShloMosaic Idealize.ShloMosaic.TcCoe Idealize.ShloMosaic.ValueIdx Idealize.SL.Sem Idealize.ShloMosaic.StableHlo

/-- A bias vector cast to one row is the bias laid out as a row: entry (0, q) of either is entry q of the vector. -/
theorem row_eq (b : (⟨1, ![256]⟩ : Shape).Idx → Elt Ideal .f32) (h : (⟨1, ![256]⟩ : Shape).ShapeCasts ⟨2, ![1, 256]⟩) :
    shapeCast (⟨2, ![1, 256]⟩ : Shape) b h = Cert.Gcn.Spec.row (F := Ideal) b := by
  funext i
  obtain ⟨u, q, rfl⟩ : ∃ (u : Fin 1) (q : Fin 256), i = ix2 u q := ⟨i 0, i 1, eq_ix2 i⟩
  have hu : u = 0 := Subsingleton.elim _ _
  subst hu
  unfold Cert.Gcn.Spec.row
  rw [Cert.LibRow.row_apply, Cert.LibHostDense.bcastRow_apply]

variable (m : (ℓ : Loc nD τ sig) → Buf (Elt Ideal) ℓ) (ρ : Dev nD → PrngReg)

/-- The first layer's output. -/
def H1 (c : Dev nD) := Cert.Gcn.Spec.layer1 (F := Ideal) (S m c) (D m c) (Nm m c) (m ((c : Thread nD τ).loc main_arg0)) (m ((c : Thread nD τ).loc main_arg3)) (m ((c : Thread nD τ).loc main_arg4))
/-- Layer 2's output. -/
def H2 (c : Dev nD) := Cert.Gcn.Spec.layer (F := Ideal) (S m c) (D m c) (Nm m c) (H1 m c) (m ((c : Thread nD τ).loc main_arg5)) (m ((c : Thread nD τ).loc main_arg6))
/-- Layer 3's output. -/
def H3 (c : Dev nD) := Cert.Gcn.Spec.layer (F := Ideal) (S m c) (D m c) (Nm m c) (H2 m c) (m ((c : Thread nD τ).loc main_arg7)) (m ((c : Thread nD τ).loc main_arg8))
/-- Layer 4's output. -/
def H4 (c : Dev nD) := Cert.Gcn.Spec.layer (F := Ideal) (S m c) (D m c) (Nm m c) (H3 m c) (m ((c : Thread nD τ).loc main_arg9)) (m ((c : Thread nD τ).loc main_arg10))
/-- Layer 5's output. -/
def H5 (c : Dev nD) := Cert.Gcn.Spec.layer (F := Ideal) (S m c) (D m c) (Nm m c) (H4 m c) (m ((c : Thread nD τ).loc main_arg11)) (m ((c : Thread nD τ).loc main_arg12))

/-! ## Layer 1 -/

/-- The product launch leaves the product of the layer's input and its weight matrix. -/
theorem lin1 (c : Dev nD) :
    W4 m ρ c (Proc.devRef .tc main_v31) = Cert.Gcn.Spec.dot1 (F := Ideal) (m ((c : Thread nD τ).loc main_arg0)) (m ((c : Thread nD τ).loc main_arg3)) :=
  (W4_arr m ρ c 2).trans ((Cert.Gcn.Region0.final (V3 m ρ) c).trans
    (congrArg₂ (Cert.Gcn.Spec.dot1 (F := Ideal)) (Cert.Gcn.Carry.arg0_at3 m ρ c) (Cert.Gcn.Carry.arg3_at3 m ρ c)))

/-- The host stretch gathers the product's rows along the edges, scales them and adds them into their destinations. -/
theorem agg1 (c : Dev nD) :
    W5 m ρ c (Proc.devRef .tc main_v43)
      = Cert.Gcn.Spec.agg (F := Ideal) (S m c) (D m c) (Nm m c) (Cert.Gcn.Spec.dot1 (F := Ideal) (m ((c : Thread nD τ).loc main_arg0)) (m ((c : Thread nD τ).loc main_arg3))) := by
  show after hostOps1 (W4 m ρ c) (Proc.devRef .tc main_v43) = _
  eval_after
  rw [lin1 m ρ c, Cert.Gcn.Carry.v3_at4 m ρ c, Cert.Gcn.Carry.v6_at4 m ρ c, Cert.Gcn.Carry.v30_at4 m ρ c,
    v3_at3 m ρ c, v6_at3 m ρ c, v30_at3 m ρ c]
  unfold Cert.Gcn.Spec.agg
  rfl

/-- The same stretch lays the bias out as a row. -/
theorem row1 (c : Dev nD) :
    W5 m ρ c (Proc.devRef .tc main_v44) = Cert.Gcn.Spec.row (F := Ideal) (m ((c : Thread nD τ).loc main_arg4)) := by
  show after hostOps1 (W4 m ρ c) (Proc.devRef .tc main_v44) = _
  eval_after
  rw [Cert.Gcn.Carry.arg4_at4 m ρ c]
  exact row_eq _ _

/-- The bias launch leaves the layer's output. -/
theorem out1 (c : Dev nD) : W6 m ρ c (Proc.devRef .tc main_v45) = H1 m c :=
  (W6_arr m ρ c 2).trans ((Cert.Gcn.Region1.final (V5 m ρ) c).trans
    (congrArg₂ (Cert.Gcn.Spec.biasRelu (F := Ideal)) (agg1 m ρ c) (row1 m ρ c)))

/-! ## Layer 2 -/

/-- The product launch leaves the product of the layer's input and its weight matrix. -/
theorem lin2 (c : Dev nD) :
    W7 m ρ c (Proc.devRef .tc main_v46) = Cert.Gcn.Spec.dot (F := Ideal) (H1 m c) (m ((c : Thread nD τ).loc main_arg5)) :=
  (W7_arr m ρ c 2).trans ((Cert.Gcn.Region2.final (V6 m ρ) c).trans
    (congrArg₂ (Cert.Gcn.Spec.dot (F := Ideal)) (out1 m ρ c) (Cert.Gcn.Carry.arg5_at6 m ρ c)))

/-- The host stretch gathers the product's rows along the edges, scales them and adds them into their destinations. -/
theorem agg2 (c : Dev nD) :
    W8 m ρ c (Proc.devRef .tc main_v58)
      = Cert.Gcn.Spec.agg (F := Ideal) (S m c) (D m c) (Nm m c) (Cert.Gcn.Spec.dot (F := Ideal) (H1 m c) (m ((c : Thread nD τ).loc main_arg5))) := by
  show after hostOps3 (W7 m ρ c) (Proc.devRef .tc main_v58) = _
  eval_after
  rw [lin2 m ρ c, Cert.Gcn.Carry.v3_at7 m ρ c, Cert.Gcn.Carry.v6_at7 m ρ c, Cert.Gcn.Carry.v30_at7 m ρ c,
    v3_at3 m ρ c, v6_at3 m ρ c, v30_at3 m ρ c]
  unfold Cert.Gcn.Spec.agg
  rfl

/-- The same stretch lays the bias out as a row. -/
theorem row2 (c : Dev nD) :
    W8 m ρ c (Proc.devRef .tc main_v59) = Cert.Gcn.Spec.row (F := Ideal) (m ((c : Thread nD τ).loc main_arg6)) := by
  show after hostOps3 (W7 m ρ c) (Proc.devRef .tc main_v59) = _
  eval_after
  rw [Cert.Gcn.Carry.arg6_at7 m ρ c]
  exact row_eq _ _

/-- The bias launch leaves the layer's output. -/
theorem out2 (c : Dev nD) : W9 m ρ c (Proc.devRef .tc main_v60) = H2 m c :=
  (W9_arr m ρ c 2).trans ((Cert.Gcn.Region3.final (V8 m ρ) c).trans
    (congrArg₂ (Cert.Gcn.Spec.biasRelu (F := Ideal)) (agg2 m ρ c) (row2 m ρ c)))

/-! ## Layer 3 -/

/-- The product launch leaves the product of the layer's input and its weight matrix. -/
theorem lin3 (c : Dev nD) :
    W10 m ρ c (Proc.devRef .tc main_v61) = Cert.Gcn.Spec.dot (F := Ideal) (H2 m c) (m ((c : Thread nD τ).loc main_arg7)) :=
  (W10_arr m ρ c 2).trans ((Cert.Gcn.Region4.final (V9 m ρ) c).trans
    (congrArg₂ (Cert.Gcn.Spec.dot (F := Ideal)) (out2 m ρ c) (Cert.Gcn.Carry.arg7_at9 m ρ c)))

/-- The host stretch gathers the product's rows along the edges, scales them and adds them into their destinations. -/
theorem agg3 (c : Dev nD) :
    W11 m ρ c (Proc.devRef .tc main_v73)
      = Cert.Gcn.Spec.agg (F := Ideal) (S m c) (D m c) (Nm m c) (Cert.Gcn.Spec.dot (F := Ideal) (H2 m c) (m ((c : Thread nD τ).loc main_arg7))) := by
  show after hostOps5 (W10 m ρ c) (Proc.devRef .tc main_v73) = _
  eval_after
  rw [lin3 m ρ c, Cert.Gcn.Carry.v3_at10 m ρ c, Cert.Gcn.Carry.v6_at10 m ρ c, Cert.Gcn.Carry.v30_at10 m ρ c,
    v3_at3 m ρ c, v6_at3 m ρ c, v30_at3 m ρ c]
  unfold Cert.Gcn.Spec.agg
  rfl

/-- The same stretch lays the bias out as a row. -/
theorem row3 (c : Dev nD) :
    W11 m ρ c (Proc.devRef .tc main_v74) = Cert.Gcn.Spec.row (F := Ideal) (m ((c : Thread nD τ).loc main_arg8)) := by
  show after hostOps5 (W10 m ρ c) (Proc.devRef .tc main_v74) = _
  eval_after
  rw [Cert.Gcn.Carry.arg8_at10 m ρ c]
  exact row_eq _ _

/-- The bias launch leaves the layer's output. -/
theorem out3 (c : Dev nD) : W12 m ρ c (Proc.devRef .tc main_v75) = H3 m c :=
  (W12_arr m ρ c 2).trans ((Cert.Gcn.Region5.final (V11 m ρ) c).trans
    (congrArg₂ (Cert.Gcn.Spec.biasRelu (F := Ideal)) (agg3 m ρ c) (row3 m ρ c)))

/-! ## Layer 4 -/

/-- The product launch leaves the product of the layer's input and its weight matrix. -/
theorem lin4 (c : Dev nD) :
    W13 m ρ c (Proc.devRef .tc main_v76) = Cert.Gcn.Spec.dot (F := Ideal) (H3 m c) (m ((c : Thread nD τ).loc main_arg9)) :=
  (W13_arr m ρ c 2).trans ((Cert.Gcn.Region6.final (V12 m ρ) c).trans
    (congrArg₂ (Cert.Gcn.Spec.dot (F := Ideal)) (out3 m ρ c) (Cert.Gcn.Carry.arg9_at12 m ρ c)))

/-- The host stretch gathers the product's rows along the edges, scales them and adds them into their destinations. -/
theorem agg4 (c : Dev nD) :
    W14 m ρ c (Proc.devRef .tc main_v88)
      = Cert.Gcn.Spec.agg (F := Ideal) (S m c) (D m c) (Nm m c) (Cert.Gcn.Spec.dot (F := Ideal) (H3 m c) (m ((c : Thread nD τ).loc main_arg9))) := by
  show after hostOps7 (W13 m ρ c) (Proc.devRef .tc main_v88) = _
  eval_after
  rw [lin4 m ρ c, Cert.Gcn.Carry.v3_at13 m ρ c, Cert.Gcn.Carry.v6_at13 m ρ c, Cert.Gcn.Carry.v30_at13 m ρ c,
    v3_at3 m ρ c, v6_at3 m ρ c, v30_at3 m ρ c]
  unfold Cert.Gcn.Spec.agg
  rfl

/-- The same stretch lays the bias out as a row. -/
theorem row4 (c : Dev nD) :
    W14 m ρ c (Proc.devRef .tc main_v89) = Cert.Gcn.Spec.row (F := Ideal) (m ((c : Thread nD τ).loc main_arg10)) := by
  show after hostOps7 (W13 m ρ c) (Proc.devRef .tc main_v89) = _
  eval_after
  rw [Cert.Gcn.Carry.arg10_at13 m ρ c]
  exact row_eq _ _

/-- The bias launch leaves the layer's output. -/
theorem out4 (c : Dev nD) : W15 m ρ c (Proc.devRef .tc main_v90) = H4 m c :=
  (W15_arr m ρ c 2).trans ((Cert.Gcn.Region7.final (V14 m ρ) c).trans
    (congrArg₂ (Cert.Gcn.Spec.biasRelu (F := Ideal)) (agg4 m ρ c) (row4 m ρ c)))

/-! ## Layer 5 -/

/-- The product launch leaves the product of the layer's input and its weight matrix. -/
theorem lin5 (c : Dev nD) :
    W16 m ρ c (Proc.devRef .tc main_v91) = Cert.Gcn.Spec.dot (F := Ideal) (H4 m c) (m ((c : Thread nD τ).loc main_arg11)) :=
  (W16_arr m ρ c 2).trans ((Cert.Gcn.Region8.final (V15 m ρ) c).trans
    (congrArg₂ (Cert.Gcn.Spec.dot (F := Ideal)) (out4 m ρ c) (Cert.Gcn.Carry.arg11_at15 m ρ c)))

/-- The host stretch gathers the product's rows along the edges, scales them and adds them into their destinations. -/
theorem agg5 (c : Dev nD) :
    W17 m ρ c (Proc.devRef .tc main_v103)
      = Cert.Gcn.Spec.agg (F := Ideal) (S m c) (D m c) (Nm m c) (Cert.Gcn.Spec.dot (F := Ideal) (H4 m c) (m ((c : Thread nD τ).loc main_arg11))) := by
  show after hostOps9 (W16 m ρ c) (Proc.devRef .tc main_v103) = _
  eval_after
  rw [lin5 m ρ c, Cert.Gcn.Carry.v3_at16 m ρ c, Cert.Gcn.Carry.v6_at16 m ρ c, Cert.Gcn.Carry.v30_at16 m ρ c,
    v3_at3 m ρ c, v6_at3 m ρ c, v30_at3 m ρ c]
  unfold Cert.Gcn.Spec.agg
  rfl

/-- The same stretch lays the bias out as a row. -/
theorem row5 (c : Dev nD) :
    W17 m ρ c (Proc.devRef .tc main_v104) = Cert.Gcn.Spec.row (F := Ideal) (m ((c : Thread nD τ).loc main_arg12)) := by
  show after hostOps9 (W16 m ρ c) (Proc.devRef .tc main_v104) = _
  eval_after
  rw [Cert.Gcn.Carry.arg12_at16 m ρ c]
  exact row_eq _ _

/-- The bias launch leaves the layer's output. -/
theorem out5 (c : Dev nD) : W18 m ρ c (Proc.devRef .tc main_v105) = H5 m c :=
  (W18_arr m ρ c 2).trans ((Cert.Gcn.Region9.final (V17 m ρ) c).trans
    (congrArg₂ (Cert.Gcn.Spec.biasRelu (F := Ideal)) (agg5 m ρ c) (row5 m ρ c)))

/-! ## The read-out -/

/-- The last host stretch applies the read-out to the fifth layer's output. -/
theorem result (c : Dev nD) :
    W19 m ρ c (Proc.devRef .tc main_v127) = Cert.Gcn.Spec.tail (F := Ideal) (m ((c : Thread nD τ).loc main_arg2)) (H5 m c) (m ((c : Thread nD τ).loc main_arg13)) (m ((c : Thread nD τ).loc main_arg14)) := by
  show after hostOps10 (W18 m ρ c) (Proc.devRef .tc main_v127) = _
  eval_after
  rw [out5 m ρ c, Cert.Gcn.Carry.arg2_at18 m ρ c, Cert.Gcn.Carry.arg13_at18 m ρ c, Cert.Gcn.Carry.arg14_at18 m ρ c]
  unfold Cert.Gcn.Spec.tail
  rfl

/-- The program's result is the network of its fifteen arguments. -/
theorem result_net (c : Dev nD) :
    W19 m ρ c (Proc.devRef .tc main_v127)
      = Cert.Gcn.Spec.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (result m ρ c).trans (by unfold Cert.Gcn.Spec.net H5 H4 H3 H2 H1 Nm S D; rfl)

end Cert.Gcn.Chain

end
-- ==== Proof.lean ====
/-
  The certificate of a five-layer graph convolution network (100000 nodes, 300000 edges and the self loops, 256 hidden
  features, a mean over 64 graphs and a logistic read-out) whose per-layer weight product and bias-maximum run as twenty-point
  TensorCore launches, against the same network written with host operations only.

  On the extended reals the two programs are one function of the fifteen arguments, with no condition on the inputs:
  rounding to bf16 before a product is the identity; a product accumulated block of rows by block of rows is the whole
  product, entry by entry the same sum; the bias launch's "row added to every row, maximum with zero" is the host's
  broadcast-add followed by the maximum; everything between the launches — the edge numbering, the degree weights, the
  gather and scatter-add along the edges, the read-out — is the same operations in the same order in both programs.
  So no law beyond "the same sum" is used, and the precondition is never opened.

  The frames of the two kernel programs are the generated ones; the reference's frame is its run with the result dropped.
  The idealization rewrote nothing, so `preserves` is trivial.
-/
import proofs.«109091_j76974403879378_1_alg».proof.Defs
import proofs.«109091_j76974403879378_1_alg».proof.Proof.Gen.Kernel
import proofs.«109091_j76974403879378_1_alg».proof.Proof.Gen.Kernel.Skeleton
import proofs.«109091_j76974403879378_1_alg».proof.Proof.Gen.Kernel.Launch
import proofs.«109091_j76974403879378_1_alg».proof.Proof.Gen.Kernel.Points
import proofs.«109091_j76974403879378_1_alg».proof.Proof.Gen.Kernel.Frame
import proofs.«109091_j76974403879378_1_alg».proof.Proof.Gen.KernelIdeal
import proofs.«109091_j76974403879378_1_alg».proof.Proof.Gen.KernelIdeal.Skeleton
import proofs.«109091_j76974403879378_1_alg».proof.Proof.Gen.KernelIdeal.Launch
import proofs.«109091_j76974403879378_1_alg».proof.Proof.Gen.KernelIdeal.Points
import proofs.«109091_j76974403879378_1_alg».proof.Proof.Gen.KernelIdeal.Frame
import proofs.«109091_j76974403879378_1_alg».proof.Proof.Gen.ReferenceIdeal
import proofs.«109091_j76974403879378_1_alg».proof.Proof.Gen.Pre_finite_inputs
import proofs.«109091_j76974403879378_1_alg».proof.Proof.RefRun
import proofs.«109091_j76974403879378_1_alg».proof.Proof.RunMain
import proofs.«109091_j76974403879378_1_alg».proof.Proof.Spec
import proofs.«109091_j76974403879378_1_alg».proof.Proof.Layers
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the network of the arguments in their result buffer: the kernel program's by the values its
    buffers hold boundary by boundary, the reference's because its result term is the network's definitions unfolded. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.Gcn.Chain.result_net m ρ c), (h c).2⟩) (Cert.Gcn.RunMain.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.Spec.ref_eq]
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
